-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x64x128 : Shape := ⟨4, ![16, 64, 64, 128]⟩
abbrev S16x64x2x128x128 : Shape := ⟨5, ![16, 64, 2, 128, 128]⟩
abbrev S64x2x4x64 : Shape := ⟨4, ![64, 2, 4, 64]⟩
abbrev S64x1 : Shape := ⟨2, ![64, 1]⟩
abbrev S_ : Shape := ⟨0, ![]⟩

class Facts : Prop where
  bcast_S_S16x64x64x128 : S_.BroadcastsInDim S16x64x64x128 (![] : Fin 0 → Fin S16x64x64x128.rank)
  reducesTo_S16x64x64x128_S_d0_1_2_3 : S16x64x64x128.ReducesTo [0, 1, 2, 3] S_
  h_S_ : 0 < S_.numel
  bcast_S_S16x64x2x128x128 : S_.BroadcastsInDim S16x64x2x128x128 (![] : Fin 0 → Fin S16x64x2x128x128.rank)
  reducesTo_S16x64x2x128x128_S_d0_1_2_3_4 : S16x64x2x128x128.ReducesTo [0, 1, 2, 3, 4] S_
  bcast_S_S64x2x4x64 : S_.BroadcastsInDim S64x2x4x64 (![] : Fin 0 → Fin S64x2x4x64.rank)
  reducesTo_S64x2x4x64_S_d0_1_2_3 : S64x2x4x64.ReducesTo [0, 1, 2, 3] S_
  bcast_S_S64x1 : S_.BroadcastsInDim S64x1 (![] : Fin 0 → Fin S64x1.rank)
  reducesTo_S64x1_S_d0_1 : S64x1.ReducesTo [0, 1] S_

variable [Facts]

def fn_part1 {F : FTy → Type} [FloatOps F] (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  main_v18

def fn {F : FTy → Type} [FloatOps F] (main_arg0 : FVec F S16x64x64x128 .f32) (main_arg1 : FVec F S16x64x2x128x128 .f32) (main_arg2 : FVec F S64x2x4x64 .f32) (main_arg3 : FVec F S64x1 .f32) : IVec S_ 1 :=
  let main_v0 : FVec F S16x64x64x128 .f32 := Host.absf main_arg0
  let main_cst : FVec F S_ .f32 := constant S_ .f32 0x7F800000#32
  let main_v1 : FVec F S16x64x64x128 .f32 := broadcastInDim S16x64x64x128 ![] bcast_S_S16x64x64x128 main_cst
  let main_v2 : IVec S16x64x64x128 1 := cmpf .olt main_v0 main_v1
  let main_c : IVec S_ 1 := constantI S_ 1 1#1
  let main_v3 : IVec S_ 1 := (fun x v => Host.reduce IntOp.andi x v reducesTo_S16x64x64x128_S_d0_1_2_3 h_S_) main_v2 main_c
  let main_v4 : FVec F S16x64x2x128x128 .f32 := Host.absf main_arg1
  let main_cst_0 : FVec F S_ .f32 := constant S_ .f32 0x7F800000#32
  let main_v5 : FVec F S16x64x2x128x128 .f32 := broadcastInDim S16x64x2x128x128 ![] bcast_S_S16x64x2x128x128 main_cst_0
  let main_v6 : IVec S16x64x2x128x128 1 := cmpf .olt main_v4 main_v5
  let main_c_1 : IVec S_ 1 := constantI S_ 1 1#1
  let main_v7 : IVec S_ 1 := (fun x v => Host.reduce IntOp.andi x v reducesTo_S16x64x2x128x128_S_d0_1_2_3_4 h_S_) main_v6 main_c_1
  let main_v8 : IVec S_ 1 := andi main_v3 main_v7
  let main_v9 : FVec F S64x2x4x64 .f32 := Host.absf main_arg2
  let main_cst_2 : FVec F S_ .f32 := constant S_ .f32 0x7F800000#32
  let main_v10 : FVec F S64x2x4x64 .f32 := broadcastInDim S64x2x4x64 ![] bcast_S_S64x2x4x64 main_cst_2
  let main_v11 : IVec S64x2x4x64 1 := cmpf .olt main_v9 main_v10
  let main_c_3 : IVec S_ 1 := constantI S_ 1 1#1
  let main_v12 : IVec S_ 1 := (fun x v => Host.reduce IntOp.andi x v reducesTo_S64x2x4x64_S_d0_1_2_3 h_S_) main_v11 main_c_3
  let main_v13 : IVec S_ 1 := andi main_v8 main_v12
  let main_v14 : FVec F S64x1 .f32 := Host.absf main_arg3
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_v13 main_v16
-- ==== Kernel.lean ====
abbrev S16x64x64x128 : Shape := ⟨4, ![16, 64, 64, 128]⟩
abbrev S16x64x2x128x128 : Shape := ⟨5, ![16, 64, 2, 128, 128]⟩
abbrev S64x2x4x64 : Shape := ⟨4, ![64, 2, 4, 64]⟩
abbrev S64x1 : Shape := ⟨2, ![64, 1]⟩
abbrev S64x512 : Shape := ⟨2, ![64, 512]⟩
abbrev S1x64x64x128 : Shape := ⟨4, ![1, 64, 64, 128]⟩
abbrev S1x64x2x128x128 : Shape := ⟨5, ![1, 64, 2, 128, 128]⟩
abbrev S64x128 : Shape := ⟨2, ![64, 128]⟩
abbrev S2x64x128 : Shape := ⟨3, ![2, 64, 128]⟩
abbrev S1x1x64x128 : Shape := ⟨4, ![1, 1, 64, 128]⟩
abbrev S1x1x2x128x128 : Shape := ⟨5, ![1, 1, 2, 128, 128]⟩
abbrev S2x128x128 : Shape := ⟨3, ![2, 128, 128]⟩
abbrev S1x64x128 : Shape := ⟨3, ![1, 64, 128]⟩
abbrev S2x192x128 : Shape := ⟨3, ![2, 192, 128]⟩
abbrev S512x128 : Shape := ⟨2, ![512, 128]⟩

abbrev nBuf : Space → Nat
  | .hbm => 6
  | .vmem => 11
  | .smem => 0
  | _ => 0

abbrev bufTy : (tb : Table) → Fin (tcTables nBuf tb) → BufTy
  | .hbm, ⟨0, _⟩ => ⟨S16x64x64x128, .f32⟩
  | .hbm, ⟨1, _⟩ => ⟨S16x64x2x128x128, .f32⟩
  | .hbm, ⟨2, _⟩ => ⟨S64x2x4x64, .f32⟩
  | .hbm, ⟨3, _⟩ => ⟨S64x1, .f32⟩
  | .hbm, ⟨4, _⟩ => ⟨S64x512, .f32⟩
  | .hbm, ⟨5, _⟩ => ⟨S16x64x64x128, .f32⟩
  | .local _ .vmem, ⟨0, _⟩ => ⟨S1x64x64x128, .f32⟩
  | .local _ .vmem, ⟨1, _⟩ => ⟨S1x64x64x128, .f32⟩
  | .local _ .vmem, ⟨2, _⟩ => ⟨S1x64x2x128x128, .f32⟩
  | .local _ .vmem, ⟨3, _⟩ => ⟨S1x64x2x128x128, .f32⟩
  | .local _ .vmem, ⟨4, _⟩ => ⟨S64x512, .f32⟩
  | .local _ .vmem, ⟨5, _⟩ => ⟨S64x1, .f32⟩
  | .local _ .vmem, ⟨6, _⟩ => ⟨S1x64x64x128, .f32⟩
  | .local _ .vmem, ⟨7, _⟩ => ⟨S1x64x64x128, .f32⟩
  | .local _ .vmem, ⟨8, _⟩ => ⟨S64x128, .f32⟩
  | .local _ .vmem, ⟨9, _⟩ => ⟨S2x64x128, .f32⟩
  | .local _ .vmem, ⟨10, _⟩ => ⟨S2x64x128, .f32⟩
  | _, _ => ⟨S16x64x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c64_i32 : BitVec 32 := 64#32
  let v16 : BitVec 32 := Scalar.addi c0_i32 c64_i32
  let c1_i32 : BitVec 32 := 1#32
  ⟨c0_i32, v16, c1_i32⟩
def k0_off1 (k0_t1 : Fin k0_t1_loop.trips) : Fin 4 → Nat :=
  let c0_16 : Index := 0#32
  let c0_i32_15 : BitVec 32 := 0#32
  let c0_i32 : BitVec 32 := 0#32
  let c1_i32 : BitVec 32 := 1#32
  let arg9 : BitVec 32 := Scf.iv c0_i32 c1_i32 k0_t1
  let c1_i32_14 : BitVec 32 := 1#32
  let v17 : BitVec 32 := Scalar.muli arg9 c1_i32_14
  let v18 : BitVec 32 := Scalar.addi c0_i32_15 v17
  let v19 : Index := Scalar.indexCast v18
  let c0_17 : Index := 0#32
  let c0_18 : Index := 0#32
  ![0, v19.toNat, 0, 0]
def k0_off2 (k0_t1 : Fin k0_t1_loop.trips) : Fin 5 → Nat :=
  let c0_19 : Index := 0#32
  let c0_i32_15 : BitVec 32 := 0#32
  let c0_i32 : BitVec 32 := 0#32
  let c1_i32 : BitVec 32 := 1#32
  let arg9 : BitVec 32 := Scf.iv c0_i32 c1_i32 k0_t1
  let c1_i32_14 : BitVec 32 := 1#32
  let v17 : BitVec 32 := Scalar.muli arg9 c1_i32_14
  let v18 : BitVec 32 := Scalar.addi c0_i32_15 v17
  let v22 : Index := Scalar.indexCast v18
  let c0_20 : Index := 0#32
  let c0_21 : Index := 0#32
  let c0_22 : Index := 0#32
  ![0, v22.toNat, 0, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x2x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x64x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S64x2x4x64_S64x512 : S64x2x4x64.ShapeCasts S64x512
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S2x64x128_S2x64x128_0_0_0 : ∀ a, (![0, 0, 0] : Fin 3 → Nat) a + S2x64x128.size a ≤ S2x64x128.size a
  h_S2x64x128 : 0 < S2x64x128.numel
  shapeCasts_S2x64x128_S2x64x128 : S2x64x128.ShapeCasts S2x64x128
  inb_S64x512_S64x512_0_0 : ∀ a, (![0, 0] : Fin 2 → Nat) a + S64x512.size a ≤ S64x512.size a
  h_S64x512 : 0 < S64x512.numel
  shapeCasts_S64x512_S64x512 : S64x512.ShapeCasts S64x512
  bitsLt_bf16_f32 : FTy.bits .bf16 < FTy.bits .f32
  inb_S64x1_S64x1_0_0 : ∀ a, (![0, 0] : Fin 2 → Nat) a + S64x1.size a ≤ S64x1.size a
  h_S64x1 : 0 < S64x1.numel
  h_S1x1x64x128 : 0 < S1x1x64x128.numel
  shapeCasts_S1x1x64x128_S64x128 : S1x1x64x128.ShapeCasts S64x128
  h_S1x1x2x128x128 : 0 < S1x1x2x128x128.numel
  shapeCasts_S1x1x2x128x128_S2x128x128 : S1x1x2x128x128.ShapeCasts S2x128x128
  shapeCasts_S64x128_S1x64x128 : S64x128.ShapeCasts S1x64x128
  shapeCasts_S1x64x128_S1x64x128 : S1x64x128.ShapeCasts S1x64x128
  broadcasts_S1x64x128_S2x64x128 : S1x64x128.Broadcasts S2x64x128
  concatenates_S2x64x128_S2x64x128_S2x64x128_S2x192x128_d1 : Shape.Concatenates [S2x64x128, S2x64x128, S2x64x128] S2x192x128 1
  slices_S2x192x128_o0_0_0_S2x64x128 : S2x192x128.Slices ![0, 0, 0] S2x64x128
  slices_S2x192x128_o0_64_0_S2x64x128 : S2x192x128.Slices ![0, 64, 0] S2x64x128
  slices_S2x192x128_o0_128_0_S2x64x128 : S2x192x128.Slices ![0, 128, 0] S2x64x128
  slices_S2x64x128_o0_0_0_S1x64x128 : S2x64x128.Slices ![0, 0, 0] S1x64x128
  shapeCasts_S1x64x128_S64x128 : S1x64x128.ShapeCasts S64x128
  slices_S2x64x128_o1_0_0_S1x64x128 : S2x64x128.Slices ![1, 0, 0] S1x64x128
  concatenates_S64x128_S64x128_S64x128_S64x128_S64x128_S64x128_S64x128_S64x128_S512x128_d0 : Shape.Concatenates [S64x128, S64x128, S64x128, S64x128, S64x128, S64x128, S64x128, S64x128] S512x128 0
  broadcasts_S64x1_S64x128 : S64x1.Broadcasts S64x128
  shapeCasts_S64x128_S1x1x64x128 : S64x128.ShapeCasts S1x1x64x128
  dot_S2x192x128_S2x128x128_S2x192x128_2_1_1_2_0_0_wf : DotDims.WF S2x192x128 S2x128x128 S2x192x128 [2] [1] [1] [2] [0] [0]
  dot_S64x512_S512x128_S64x128_1_0_0_1_n_n_wf : DotDims.WF S64x512 S512x128 S64x128 [1] [0] [0] [1] [] []
  hrank0 : 0 < grid0.rank
  k0_t1_ok : k0_t1_loop.OK
  k0_off1_inb : ∀ k0_t1 : Fin k0_t1_loop.trips, ∀ a, (k0_off1 k0_t1) a + S1x1x64x128.size a ≤ S1x64x64x128.size a
  k0_off2_inb : ∀ k0_t1 : Fin k0_t1_loop.trips, ∀ a, (k0_off2 k0_t1) a + S1x1x2x128x128.size a ≤ S1x64x2x128x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x64x128.size a ≤ S16x64x64x128.size a
  hwx0_0 : ∀ i : grid0.Coords, EltTy.bits .f32 = 32 ∨ (Rect.block (s := S16x64x64x128) S1x64x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x2x128x128.size a ≤ S16x64x2x128x128.size a
  hwx0_1 : ∀ i : grid0.Coords, EltTy.bits .f32 = 32 ∨ (Rect.block (s := S16x64x2x128x128) S1x64x2x128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x512.size a ≤ S64x512.size a
  hwx0_2 : ∀ i : grid0.Coords, EltTy.bits .f32 = 32 ∨ (Rect.block (s := S64x512) S64x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x64x128.size a ≤ S16x64x64x128.size a
  hwx0_4 : ∀ i : grid0.Coords, EltTy.bits .f32 = 32 ∨ (Rect.block (s := S16x64x64x128) S1x64x64x128.size (cc0_transform_4 i) (hinb0_4 i)).WholeWords (EltTy.packing .f32)

variable [Facts₀]

def dot_S2x192x128_S2x128x128_S2x192x128_2_1_1_2_0_0 : DotDims S2x192x128 S2x128x128 S2x192x128 where
  lhsContracting := [2]
  rhsContracting := [1]
  lhsNonContracting := [1]
  rhsNonContracting := [2]
  lhsBatch := [0]
  rhsBatch := [0]
  wf := dot_S2x192x128_S2x128x128_S2x192x128_2_1_1_2_0_0_wf
def dot_S64x512_S512x128_S64x128_1_0_0_1_n_n : DotDims S64x512 S512x128 S64x128 where
  lhsContracting := [1]
  rhsContracting := [0]
  lhsNonContracting := [0]
  rhsNonContracting := [1]
  lhsBatch := []
  rhsBatch := []
  wf := dot_S64x512_S512x128_S64x128_1_0_0_1_n_n_wf

abbrev win0_0 : Pipeline.Window sig grid0 :=
  Pipeline.Window.ofSpec (Memref.whole main_arg0) S1x64x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x2x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64x64x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x64x64x128 : Shape := ⟨4, ![16, 64, 64, 128]⟩
abbrev S16x64x2x128x128 : Shape := ⟨5, ![16, 64, 2, 128, 128]⟩
abbrev S64x2x4x64 : Shape := ⟨4, ![64, 2, 4, 64]⟩
abbrev S64x1 : Shape := ⟨2, ![64, 1]⟩
abbrev S16x64x1x64x128 : Shape := ⟨5, ![16, 64, 1, 64, 128]⟩
abbrev S16x64x2x64x128 : Shape := ⟨5, ![16, 64, 2, 64, 128]⟩
abbrev S_ : Shape := ⟨0, ![]⟩
abbrev S16x1x2x64x128 : Shape := ⟨5, ![16, 1, 2, 64, 128]⟩
abbrev S16x63x2x64x128 : Shape := ⟨5, ![16, 63, 2, 64, 128]⟩
abbrev S16x64x1x2x64x128 : Shape := ⟨6, ![16, 64, 1, 2, 64, 128]⟩
abbrev S16x64x4x2x64x128 : Shape := ⟨6, ![16, 64, 4, 2, 64, 128]⟩
abbrev S16x64x128x2x4x64 : Shape := ⟨6, ![16, 64, 128, 2, 4, 64]⟩
abbrev S16x64x128x512 : Shape := ⟨4, ![16, 64, 128, 512]⟩
abbrev S64x512 : Shape := ⟨2, ![64, 512]⟩
abbrev S64x16x64x128 : Shape := ⟨4, ![64, 16, 64, 128]⟩
abbrev S1x1x64x1 : Shape := ⟨4, ![1, 1, 64, 1]⟩

abbrev nBuf : Space → Nat
  | .hbm => 30
  | .vmem => 0
  | .smem => 0
  | _ => 0

abbrev bufTy : (tb : Table) → Fin (tcTables nBuf tb) → BufTy
  | .hbm, ⟨0, _⟩ => ⟨S16x64x64x128, .f32⟩
  | .hbm, ⟨1, _⟩ => ⟨S16x64x2x128x128, .f32⟩
  | .hbm, ⟨2, _⟩ => ⟨S64x2x4x64, .f32⟩
  | .hbm, ⟨3, _⟩ => ⟨S64x1, .f32⟩
  | .hbm, ⟨4, _⟩ => ⟨S16x64x1x64x128, .f32⟩
  | .hbm, ⟨5, _⟩ => ⟨S16x64x2x64x128, .f32⟩
  | .hbm, ⟨6, _⟩ => ⟨S_, .f32⟩
  | .hbm, ⟨7, _⟩ => ⟨S16x1x2x64x128, .f32⟩
  | .hbm, ⟨8, _⟩ => ⟨S16x63x2x64x128, .f32⟩
  | .hbm, ⟨9, _⟩ => ⟨S16x64x2x64x128, .f32⟩
  | .hbm, ⟨10, _⟩ => ⟨S16x64x2x64x128, .f32⟩
  | .hbm, ⟨11, _⟩ => ⟨S16x63x2x64x128, .f32⟩
  | .hbm, ⟨12, _⟩ => ⟨S16x64x2x64x128, .f32⟩
  | .hbm, ⟨13, _⟩ => ⟨S16x64x2x64x128, .f32⟩
  | .hbm, ⟨14, _⟩ => ⟨S16x63x2x64x128, .f32⟩
  | .hbm, ⟨15, _⟩ => ⟨S16x64x2x64x128, .f32⟩
  | .hbm, ⟨16, _⟩ => ⟨S16x64x2x64x128, .f32⟩
  | .hbm, ⟨17, _⟩ => ⟨S16x64x1x2x64x128, .f32⟩
  | .hbm, ⟨18, _⟩ => ⟨S16x64x1x2x64x128, .f32⟩
  | .hbm, ⟨19, _⟩ => ⟨S16x64x1x2x64x128, .f32⟩
  | .hbm, ⟨20, _⟩ => ⟨S16x64x1x2x64x128, .f32⟩
  | .hbm, ⟨21, _⟩ => ⟨S16x64x4x2x64x128, .f32⟩
  | .hbm, ⟨22, _⟩ => ⟨S16x64x128x2x4x64, .f32⟩
  | .hbm, ⟨23, _⟩ => ⟨S16x64x128x512, .f32⟩
  | .hbm, ⟨24, _⟩ => ⟨S64x512, .f32⟩
  | .hbm, ⟨25, _⟩ => ⟨S64x16x64x128, .f32⟩
  | .hbm, ⟨26, _⟩ => ⟨S16x64x64x128, .f32⟩
  | .hbm, ⟨27, _⟩ => ⟨S1x1x64x1, .f32⟩
  | .hbm, ⟨28, _⟩ => ⟨S16x64x64x128, .f32⟩
  | .hbm, ⟨29, _⟩ => ⟨S16x64x64x128, .f32⟩
  | _, _ => ⟨S16x64x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩

abbrev nD : Nat := 1
abbrev τ : Topo := Topo.v7x

variable {F : FTy → Type} [FloatOps F]

class Facts₀ : Prop where
  bcast_S16x64x64x128_S16x64x1x64x128_0_1_3_4 : S16x64x64x128.BroadcastsInDim S16x64x1x64x128 (![0, 1, 3, 4] : Fin 4 → Fin S16x64x1x64x128.rank)
  bcast_S16x64x1x64x128_S16x64x2x64x128_0_1_2_3_4 : S16x64x1x64x128.BroadcastsInDim S16x64x2x64x128 (![0, 1, 2, 3, 4] : Fin 5 → Fin S16x64x2x64x128.rank)
  bcast_S_S16x1x2x64x128 : S_.BroadcastsInDim S16x1x2x64x128 (![] : Fin 0 → Fin S16x1x2x64x128.rank)
  slices_S16x64x2x64x128_S16x63x2x64x128_0_0_0_0_0 : S16x64x2x64x128.Slices ![0, 0, 0, 0, 0] S16x63x2x64x128
  concatenates_S16x1x2x64x128_S16x63x2x64x128_S16x64x2x64x128_d1 : Shape.Concatenates [S16x1x2x64x128, S16x63x2x64x128] S16x64x2x64x128 1
  bcast_S16x64x2x64x128_S16x64x1x2x64x128_0_1_3_4_5 : S16x64x2x64x128.BroadcastsInDim S16x64x1x2x64x128 (![0, 1, 3, 4, 5] : Fin 5 → Fin S16x64x1x2x64x128.rank)
  concatenates_S16x64x1x2x64x128_S16x64x1x2x64x128_S16x64x1x2x64x128_S16x64x1x2x64x128_S16x64x4x2x64x128_d2 : Shape.Concatenates [S16x64x1x2x64x128, S16x64x1x2x64x128, S16x64x1x2x64x128, S16x64x1x2x64x128] S16x64x4x2x64x128 2
  transposes_S16x64x4x2x64x128_S16x64x128x2x4x64_0_1_5_3_2_4 : S16x64x4x2x64x128.Transposes [0, 1, 5, 3, 2, 4] S16x64x128x2x4x64
  shapeCasts_S16x64x128x2x4x64_S16x64x128x512 : S16x64x128x2x4x64.ShapeCasts S16x64x128x512
  shapeCasts_S64x2x4x64_S64x512 : S64x2x4x64.ShapeCasts S64x512
  transposes_S64x16x64x128_S16x64x64x128_1_2_0_3 : S64x16x64x128.Transposes [1, 2, 0, 3] S16x64x64x128
  bcast_S64x1_S1x1x64x1_2_3 : S64x1.BroadcastsInDim S1x1x64x1 (![2, 3] : Fin 2 → Fin S1x1x64x1.rank)
  bcast_S1x1x64x1_S16x64x64x128_0_1_2_3 : S1x1x64x1.BroadcastsInDim S16x64x64x128 (![0, 1, 2, 3] : Fin 4 → Fin S16x64x64x128.rank)
  dot_S16x64x2x64x128_S16x64x2x128x128_S16x64x2x64x128_4_3_3_4_012_012_wf : DotDims.WF S16x64x2x64x128 S16x64x2x128x128 S16x64x2x64x128 [4] [3] [3] [4] [0, 1, 2] [0, 1, 2]
  dot_S64x512_S16x64x128x512_S64x16x64x128_1_3_0_012_n_n_wf : DotDims.WF S64x512 S16x64x128x512 S64x16x64x128 [1] [3] [0] [0, 1, 2] [] []

variable [Facts₀]

def dot_S16x64x2x64x128_S16x64x2x128x128_S16x64x2x64x128_4_3_3_4_012_012 : DotDims S16x64x2x64x128 S16x64x2x128x128 S16x64x2x64x128 where
  lhsContracting := [4]
  rhsContracting := [3]
  lhsNonContracting := [3]
  rhsNonContracting := [4]
  lhsBatch := [0, 1, 2]
  rhsBatch := [0, 1, 2]
  wf := dot_S16x64x2x64x128_S16x64x2x128x128_S16x64x2x64x128_4_3_3_4_012_012_wf
def dot_S64x512_S16x64x128x512_S64x16x64x128_1_3_0_012_n_n : DotDims S64x512 S16x64x128x512 S64x16x64x128 where
  lhsContracting := [1]
  rhsContracting := [3]
  lhsNonContracting := [0]
  rhsNonContracting := [0, 1, 2]
  lhsBatch := []
  rhsBatch := []
  wf := dot_S64x512_S16x64x128x512_S64x16x64x128_1_3_0_012_n_n_wf

class Facts : Prop extends Facts₀ where

variable [Facts]
-- ==== Proof.Spec.lean ====
/-
  The function both programs compute, written once over coordinates.

  One batch of a graph filter with four taps. A signal `xb t f n` (time, feature, node) and a shift operator
  `Sb t e n p` (time, edge feature, node, node) are given. Tap 0 at time `t` is the signal itself. Tap `k + 1` at time `t`
  is tap `k` ONE STEP EARLIER (zero before the first step) carried across the graph by the shift operator of time `t`:

      tap (k+1) t e f p = ∑ n, (tap k at t - 1) e f n * Sb t e n p.

  The output at time `t` stacks, for each edge feature `e` and each tap `k`, the 64 feature rows of the tap into 512 rows
  (row `e * 256 + k * 64 + f`) and reads them out with a 64 x 512 matrix plus a bias per output row.

  Time in `delayed` is a natural number, so that "one step after the last" has a value too: the state a loop over
  the 64 steps carries after `j` steps is `delayed · j` for every `j ≤ 64`.
-/
import Idealize.ShloMosaic.PureOps.Ideal
import Idealize.ShloMosaic.Lib.ValueIdx

noncomputable section

namespace Cert.TapFilter

open Idealize.ShloMosaic Idealize.ShloMosaic.ValueIdx

/-- The value of the all-zero binary32 word: what both programs fill "before the first step" with. -/
abbrev zero : EReal := Ideal.ofBits .f32 0x00000000#32

/-- A time series one step earlier: `zero` at step 0 (and past the series' end). -/
def delayed (u : Fin 64 → EReal) : ℕ → EReal
  | 0 => zero
  | j + 1 => if h : j < 64 then u ⟨j, h⟩ else zero

theorem delayed_zero (u : Fin 64 → EReal) : delayed u 0 = zero := rfl

theorem delayed_succ (u : Fin 64 → EReal) (j : Fin 64) : delayed u (j.val + 1) = u j := by
  show (if h : j.val < 64 then u ⟨j.val, h⟩ else zero) = u j
  rw [dif_pos j.isLt]

section
variable (xb : Fin 64 → Fin 64 → Fin 128 → EReal) (Sb : Fin 64 → Fin 2 → Fin 128 → Fin 128 → EReal)

/-- Tap `k` at time `t`, edge feature `e`, feature `f`, node `n`. -/
def tap : ℕ → Fin 64 → Fin 2 → Fin 64 → Fin 128 → EReal
  | 0, t, _, f, n => xb t f n
  | k + 1, t, e, f, p => ∑ n : Fin 128, delayed (fun s => tap k s e f n) t.val * Sb t e n p

theorem tap_zero (t : Fin 64) (e : Fin 2) (f : Fin 64) (n : Fin 128) : tap xb Sb 0 t e f n = xb t f n := rfl

theorem tap_succ (k : ℕ) (t : Fin 64) (e : Fin 2) (f : Fin 64) (p : Fin 128) :
    tap xb Sb (k + 1) t e f p = ∑ n : Fin 128, delayed (fun s => tap xb Sb k s e f n) t.val * Sb t e n p := rfl

/-- The first tap carries the delayed signal itself (tap 0 does not depend on the edge feature). -/
theorem tap_one (t : Fin 64) (e : Fin 2) (f : Fin 64) (p : Fin 128) :
    tap xb Sb 1 t e f p = ∑ n : Fin 128, delayed (fun s => xb s f n) t.val * Sb t e n p := rfl

end

/-- Four blocks of rows stacked into 512 rows, edge feature outermost: row `j` is feature row `j % 64` of block
    `j / 64 % 4` for edge feature `j / 256` (block 0 is the same for both edge features). -/
def stackRows (t0 : Fin 64 → Fin 128 → EReal) (t1 t2 t3 : Fin 2 → Fin 64 → Fin 128 → EReal) (j : Fin 512) (n : Fin 128) : EReal :=
  if j.val / 64 % 4 = 0 then t0 ⟨j.val % 64, by omega⟩ n
  else if j.val / 64 % 4 = 1 then t1 ⟨j.val / 256, by have := j.isLt; omega⟩ ⟨j.val % 64, by omega⟩ n
  else if j.val / 64 % 4 = 2 then t2 ⟨j.val / 256, by have := j.isLt; omega⟩ ⟨j.val % 64, by omega⟩ n
  else t3 ⟨j.val / 256, by have := j.isLt; omega⟩ ⟨j.val % 64, by omega⟩ n

/-- 512 stacked rows read out by a 64 x 512 matrix, plus a bias per output row. -/
def readout (Hm : (⟨2, ![64, 512]⟩ : Shape).Idx → EReal) (bias : (⟨2, ![64, 1]⟩ : Shape).Idx → EReal)
    (z : Fin 512 → Fin 128 → EReal) (o : Fin 64) (n : Fin 128) : EReal :=
  (∑ j : Fin 512, Hm (ix2 o j) * z j n) + bias (ix2 o 0)

section
variable (xb : Fin 64 → Fin 64 → Fin 128 → EReal) (Sb : Fin 64 → Fin 2 → Fin 128 → Fin 128 → EReal)

/-- Row `j` of the 512 stacked rows at time `t`: edge feature `j / 256`, tap `j / 64 % 4`, feature `j % 64`. -/
def stacked (t : Fin 64) (j : Fin 512) (n : Fin 128) : EReal :=
  tap xb Sb (j.val / 64 % 4) t ⟨j.val / 256, by have := j.isLt; omega⟩ ⟨j.val % 64, by omega⟩ n

/-- The stacked rows are the four taps' blocks stacked. -/
theorem stacked_eq_stackRows (t : Fin 64) :
    stacked xb Sb t = stackRows (fun f n => xb t f n) (tap xb Sb 1 t) (tap xb Sb 2 t) (tap xb Sb 3 t) := by
  funext j n
  unfold stacked stackRows
  have h4 : j.val / 64 % 4 < 4 := Nat.mod_lt _ (by decide)
  by_cases h0 : j.val / 64 % 4 = 0
  · rw [if_pos h0, h0]; rfl
  · rw [if_neg h0]
    by_cases h1 : j.val / 64 % 4 = 1
    · rw [if_pos h1, h1]
    · rw [if_neg h1]
      by_cases h2 : j.val / 64 % 4 = 2
      · rw [if_pos h2, h2]
      · rw [if_neg h2, show j.val / 64 % 4 = 3 by omega]

variable (Hm : (⟨2, ![64, 512]⟩ : Shape).Idx → EReal) (bias : (⟨2, ![64, 1]⟩ : Shape).Idx → EReal)

/-- One batch's output at time `t`, output row `o`, node `n`. -/
def filtered (t : Fin 64) (o : Fin 64) (n : Fin 128) : EReal :=
  readout Hm bias (stacked xb Sb t) o n

end

/-- The whole result array: batch `i 0` filtered by itself. -/
def G (x : (⟨4, ![16, 64, 64, 128]⟩ : Shape).Idx → EReal) (S : (⟨5, ![16, 64, 2, 128, 128]⟩ : Shape).Idx → EReal)
    (Hm : (⟨2, ![64, 512]⟩ : Shape).Idx → EReal) (bias : (⟨2, ![64, 1]⟩ : Shape).Idx → EReal) :
    (⟨4, ![16, 64, 64, 128]⟩ : Shape).Idx → EReal :=
  fun i => filtered (fun t f n => x (ix4 (i 0) t f n)) (fun t e n p => S (ix5 (i 0) t e n p)) Hm bias (i 1) (i 2) (i 3)

end Cert.TapFilter

end
-- ==== Proof.LibColumnLayout.lean ====
/-
  COLUMN FORMS OF THE LAYOUT OPERATIONS, READ AT AN INDEX GIVEN BY COORDINATES. A sum over the last axis kept as a
  column (`keepdims`) is a vector `[a]` cast to `[a, 1]` and then broadcast along the new unit axis to `[a, b]`:
  at `(i, j)` both read the vector at `i`. The two lemmas below say so for indices written `ix1` / `ix2`, for any
  element type and any extents; they are the column counterparts of the row forms `shapeCast_a_1a_apply` and
  `broadcastTo_1b_ab_apply`.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An `[a]` array cast to the column `[a, 1]` reads, at `(i, u)`, the operand at `i`, whatever the unit coordinate
    `u`: the two row-major positions are `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry in row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ColumnLayout
-- ==== Proof.Payload.lean ====
/-
  The kernel's per-trip arithmetic, read at an index over the extended reals.

  Each trip of the kernel's loop forms ONE batched product [2,192,128] x [2,128,128]: its left operand stacks three
  64-row blocks (the signal's previous step, the same for both edge features, and the two carried states), its right
  operand is the shift operator of the step. The three 64-row blocks of the product are the next carried states;
  with the signal of the step they are stacked, edge feature outermost, into 512 rows, and a [64,512] x [512,128]
  product plus a bias column reads them out. Below, every such value is read at an index given by coordinates:
  a sum over the 128 nodes for the blocks of the batched product, the four stacked blocks for the 512 rows, and
  the read-out sum plus the bias for the stored result. Over the extended reals a change of float format is the
  identity, so no rounding appears.
-/
import proofs.«130758_j26628797235681_2_alg».proof.Proof.Gen.KernelIdeal.Skeleton
import proofs.«130758_j26628797235681_2_alg».proof.Proof.Spec
import proofs.«130758_j26628797235681_2_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-! ## Layout operations at the literal shapes, read at coordinates -/

section Layout
variable {α : Type}

/-- Eight [64,128] blocks stacked along the rows: row `k * 64 + f` of the stack is row `f` of block `k`. -/
theorem concat8_rows_apply (x0 x1 x2 x3 x4 x5 x6 x7 : (⟨2, ![64, 128]⟩ : Shape).Idx → α)
    (h : Shape.Concatenates [(⟨2, ![64, 128]⟩ : Shape), ⟨2, ![64, 128]⟩, ⟨2, ![64, 128]⟩, ⟨2, ![64, 128]⟩, ⟨2, ![64, 128]⟩, ⟨2, ![64, 128]⟩, ⟨2, ![64, 128]⟩, ⟨2, ![64, 128]⟩] ⟨2, ![512, 128]⟩ 0)
    (k : Fin 8) (f : Fin 64) (n : Fin 128) (j : Fin 512) (hj : j.val = k.val * 64 + f.val) :
    concatenate ⟨2, ![512, 128]⟩ 0 [⟨⟨2, ![64, 128]⟩, x0⟩, ⟨⟨2, ![64, 128]⟩, x1⟩, ⟨⟨2, ![64, 128]⟩, x2⟩, ⟨⟨2, ![64, 128]⟩, x3⟩, ⟨⟨2, ![64, 128]⟩, x4⟩, ⟨⟨2, ![64, 128]⟩, x5⟩, ⟨⟨2, ![64, 128]⟩, x6⟩, ⟨⟨2, ![64, 128]⟩, x7⟩] h (ix2 j n)
      = (![x0, x1, x2, x3, x4, x5, x6, x7] k) (ix2 f n) := by
  have hi : ∀ b : Fin (⟨2, ![64, 128]⟩ : Shape).rank, b.cast (rfl : (⟨2, ![64, 128]⟩ : Shape).rank = (⟨2, ![512, 128]⟩ : Shape).rank) ≠ (0 : Fin 2) →
      ((ix2 f n) b).val = ((ix2 j n) (b.cast rfl)).val := fun b hb => by
    match b with
    | ⟨0, _⟩ => exact absurd rfl hb
    | ⟨1, _⟩ => rfl
  let xs : List ((s : Shape) × (s.Idx → α)) := [⟨⟨2, ![64, 128]⟩, x0⟩, ⟨⟨2, ![64, 128]⟩, x1⟩, ⟨⟨2, ![64, 128]⟩, x2⟩, ⟨⟨2, ![64, 128]⟩, x3⟩, ⟨⟨2, ![64, 128]⟩, x4⟩, ⟨⟨2, ![64, 128]⟩, x5⟩, ⟨⟨2, ![64, 128]⟩, x6⟩, ⟨⟨2, ![64, 128]⟩, x7⟩]
  match k, hj with
  | ⟨0, _⟩, hj => exact concatenate_apply_piece 0 xs h (ix2 j n) 0 (show 0 < 8 by omega) _ x0 rfl rfl 0 rfl (ix2 f n) hi (by have hj' : j.val = 0 * 64 + f.val := hj; show 0 + f.val = j.val; omega)
  | ⟨1, _⟩, hj => exact concatenate_apply_piece 0 xs h (ix2 j n) 1 (show 1 < 8 by omega) _ x1 rfl rfl 64 rfl (ix2 f n) hi (by have hj' : j.val = 1 * 64 + f.val := hj; show 64 + f.val = j.val; omega)
  | ⟨2, _⟩, hj => exact concatenate_apply_piece 0 xs h (ix2 j n) 2 (show 2 < 8 by omega) _ x2 rfl rfl 128 rfl (ix2 f n) hi (by have hj' : j.val = 2 * 64 + f.val := hj; show 128 + f.val = j.val; omega)
  | ⟨3, _⟩, hj => exact concatenate_apply_piece 0 xs h (ix2 j n) 3 (show 3 < 8 by omega) _ x3 rfl rfl 192 rfl (ix2 f n) hi (by have hj' : j.val = 3 * 64 + f.val := hj; show 192 + f.val = j.val; omega)
  | ⟨4, _⟩, hj => exact concatenate_apply_piece 0 xs h (ix2 j n) 4 (show 4 < 8 by omega) _ x4 rfl rfl 256 rfl (ix2 f n) hi (by have hj' : j.val = 4 * 64 + f.val := hj; show 256 + f.val = j.val; omega)
  | ⟨5, _⟩, hj => exact concatenate_apply_piece 0 xs h (ix2 j n) 5 (show 5 < 8 by omega) _ x5 rfl rfl 320 rfl (ix2 f n) hi (by have hj' : j.val = 5 * 64 + f.val := hj; show 320 + f.val = j.val; omega)
  | ⟨6, _⟩, hj => exact concatenate_apply_piece 0 xs h (ix2 j n) 6 (show 6 < 8 by omega) _ x6 rfl rfl 384 rfl (ix2 f n) hi (by have hj' : j.val = 6 * 64 + f.val := hj; show 384 + f.val = j.val; omega)
  | ⟨7, _⟩, hj => exact concatenate_apply_piece 0 xs h (ix2 j n) 7 (show 7 < 8 by omega) _ x7 rfl rfl 448 rfl (ix2 f n) hi (by have hj' : j.val = 7 * 64 + f.val := hj; show 448 + f.val = j.val; omega)

/-- Three [2,64,128] blocks stacked along axis 1: row `k * 64 + f` of batch `e` is row `f` of block `k`. -/
theorem concat3_axis1_apply (x0 x1 x2 : (⟨3, ![2, 64, 128]⟩ : Shape).Idx → α)
    (h : Shape.Concatenates [(⟨3, ![2, 64, 128]⟩ : Shape), ⟨3, ![2, 64, 128]⟩, ⟨3, ![2, 64, 128]⟩] ⟨3, ![2, 192, 128]⟩ 1)
    (k : Fin 3) (e : Fin 2) (f : Fin 64) (n : Fin 128) (r : Fin 192) (hr : r.val = k.val * 64 + f.val) :
    concatenate ⟨3, ![2, 192, 128]⟩ 1 [⟨⟨3, ![2, 64, 128]⟩, x0⟩, ⟨⟨3, ![2, 64, 128]⟩, x1⟩, ⟨⟨3, ![2, 64, 128]⟩, x2⟩] h (ix3 e r n)
      = (![x0, x1, x2] k) (ix3 e f n) := by
  have hi : ∀ b : Fin (⟨3, ![2, 64, 128]⟩ : Shape).rank, b.cast (rfl : (⟨3, ![2, 64, 128]⟩ : Shape).rank = (⟨3, ![2, 192, 128]⟩ : Shape).rank) ≠ (1 : Fin 3) →
      ((ix3 e f n) b).val = ((ix3 e r n) (b.cast rfl)).val := fun b hb => by
    match b with
    | ⟨0, _⟩ => rfl
    | ⟨1, _⟩ => exact absurd rfl hb
    | ⟨2, _⟩ => rfl
  let xs : List ((s : Shape) × (s.Idx → α)) := [⟨⟨3, ![2, 64, 128]⟩, x0⟩, ⟨⟨3, ![2, 64, 128]⟩, x1⟩, ⟨⟨3, ![2, 64, 128]⟩, x2⟩]
  match k, hr with
  | ⟨0, _⟩, hr => exact concatenate_apply_piece 1 xs h (ix3 e r n) 0 (show 0 < 3 by omega) _ x0 rfl rfl 0 rfl (ix3 e f n) hi (by have hr' : r.val = 0 * 64 + f.val := hr; show 0 + f.val = r.val; omega)
  | ⟨1, _⟩, hr => exact concatenate_apply_piece 1 xs h (ix3 e r n) 1 (show 1 < 3 by omega) _ x1 rfl rfl 64 rfl (ix3 e f n) hi (by have hr' : r.val = 1 * 64 + f.val := hr; show 64 + f.val = r.val; omega)
  | ⟨2, _⟩, hr => exact concatenate_apply_piece 1 xs h (ix3 e r n) 2 (show 2 < 3 by omega) _ x2 rfl rfl 128 rfl (ix3 e f n) hi (by have hr' : r.val = 2 * 64 + f.val := hr; show 128 + f.val = r.val; omega)

/-- One batch entry of a [2,64,128] array, cut out at offset `o` and cast to [64,128], reads the array at batch `o`. -/
theorem unbatch_apply (X : (⟨3, ![2, 64, 128]⟩ : Shape).Idx → α) (o : Nat)
    (h : (⟨3, ![2, 64, 128]⟩ : Shape).Slices ![o, 0, 0] ⟨3, ![1, 64, 128]⟩)
    (hc : (⟨3, ![1, 64, 128]⟩ : Shape).ShapeCasts ⟨2, ![64, 128]⟩) (e : Fin 2) (he : e.val = o) (f : Fin 64) (n : Fin 128) :
    shapeCast ⟨2, ![64, 128]⟩ (extractStridedSlice ⟨3, ![1, 64, 128]⟩ ![o, 0, 0] X h) hc (ix2 f n) = X (ix3 e f n) := by
  refine (shapeCast_1ab_ab_apply _ hc f n).trans ?_
  refine extractStridedSlice_apply _ X h (ix3 (0 : Fin 1) f n) (ix3 e f n) fun a => ?_
  match a with
  | ⟨0, _⟩ => show e.val = o + 0; omega
  | ⟨1, _⟩ => exact (Nat.zero_add _).symm
  | ⟨2, _⟩ => exact (Nat.zero_add _).symm

/-- A [64,128] array cast to [1,64,128], cast to itself and broadcast to [2,64,128] reads the array whatever the batch. -/
theorem rebatch_apply (x : (⟨2, ![64, 128]⟩ : Shape).Idx → α)
    (h1 : (⟨2, ![64, 128]⟩ : Shape).ShapeCasts ⟨3, ![1, 64, 128]⟩) (h2 : (⟨3, ![1, 64, 128]⟩ : Shape).ShapeCasts ⟨3, ![1, 64, 128]⟩)
    (hb : (⟨3, ![1, 64, 128]⟩ : Shape).Broadcasts ⟨3, ![2, 64, 128]⟩) (e : Fin 2) (f : Fin 64) (n : Fin 128) :
    broadcastTo ⟨3, ![2, 64, 128]⟩ (shapeCast ⟨3, ![1, 64, 128]⟩ (shapeCast ⟨3, ![1, 64, 128]⟩ x h1) h2) hb (ix3 e f n) = x (ix2 f n) := by
  refine (broadcastTo_apply _ hb (ix3 e f n) (ix3 (0 : Fin 1) f n) fun a => ?_).trans ?_
  · match a with
    | ⟨0, _⟩ => rfl
    | ⟨1, _⟩ => rfl
    | ⟨2, _⟩ => rfl
  rw [shapeCast_self]
  exact shapeCast_ab_1ab_apply x h1 0 f n

/-- A [1,1,2,128,128] array cast to [2,128,128] reads the array at the two leading zeros. -/
theorem cast5_3_apply (x : (⟨5, ![1, 1, 2, 128, 128]⟩ : Shape).Idx → α)
    (h : (⟨5, ![1, 1, 2, 128, 128]⟩ : Shape).ShapeCasts ⟨3, ![2, 128, 128]⟩) (e : Fin 2) (n p : Fin 128) :
    shapeCast ⟨3, ![2, 128, 128]⟩ x h (ix3 e n p) = x (ix5 (0 : Fin 1) (0 : Fin 1) e n p) :=
  shapeCast_apply x h _ _ (by
    rw [Shape.rowMajor_val_five, Shape.rowMajor_val_three]
    show (((0 * 1 + 0) * 2 + e.val) * 128 + n.val) * 128 + p.val = (e.val * 128 + n.val) * 128 + p.val
    omega)

/-- A [1,1,64,128] array cast to [64,128] reads the array at the two leading zeros. -/
theorem cast4_2_apply (x : (⟨4, ![1, 1, 64, 128]⟩ : Shape).Idx → α)
    (h : (⟨4, ![1, 1, 64, 128]⟩ : Shape).ShapeCasts ⟨2, ![64, 128]⟩) (f : Fin 64) (n : Fin 128) :
    shapeCast ⟨2, ![64, 128]⟩ x h (ix2 f n) = x (ix4 (0 : Fin 1) (0 : Fin 1) f n) :=
  shapeCast_apply x h _ _ (by
    rw [Shape.rowMajor_val_four, Shape.rowMajor_val_two]
    show ((0 * 1 + 0) * 64 + f.val) * 128 + n.val = f.val * 128 + n.val
    omega)

/-- A [64,128] array cast to [1,1,64,128] reads, at the two leading zeros, the array. -/
theorem cast2_4_apply (x : (⟨2, ![64, 128]⟩ : Shape).Idx → α)
    (h : (⟨2, ![64, 128]⟩ : Shape).ShapeCasts ⟨4, ![1, 1, 64, 128]⟩) (f : Fin 64) (n : Fin 128) :
    shapeCast ⟨4, ![1, 1, 64, 128]⟩ x h (ix4 (0 : Fin 1) (0 : Fin 1) f n) = x (ix2 f n) :=
  shapeCast_apply x h _ _ (by
    rw [Shape.rowMajor_val_four, Shape.rowMajor_val_two]
    show f.val * 128 + n.val = ((0 * 1 + 0) * 64 + f.val) * 128 + n.val
    omega)

end Layout

/-! ## The operand indices of the two products -/

section Dots

/-- The batched product [2,192,128] x [2,128,128]: the left index keeps the batch and the row, -/
theorem lhsB_0 (i : S2x192x128.Idx) (q : dot_S2x192x128_S2x128x128_S2x192x128_2_1_1_2_0_0.contr.Idx) :
    (dot_S2x192x128_S2x128x128_S2x192x128_2_1_1_2_0_0.lhsIdx i q 0).val = (i 0).val := by
  unfold DotDims.lhsIdx
  rw [dif_pos (show (0 : Fin S2x192x128.rank) ∈ dot_S2x192x128_S2x128x128_S2x192x128_2_1_1_2_0_0.lhsBatch by decide)]
  rfl
theorem lhsB_1 (i : S2x192x128.Idx) (q : dot_S2x192x128_S2x128x128_S2x192x128_2_1_1_2_0_0.contr.Idx) :
    (dot_S2x192x128_S2x128x128_S2x192x128_2_1_1_2_0_0.lhsIdx i q 1).val = (i 1).val := by
  unfold DotDims.lhsIdx
  rw [dif_neg (show ¬(1 : Fin S2x192x128.rank) ∈ dot_S2x192x128_S2x128x128_S2x192x128_2_1_1_2_0_0.lhsBatch by decide), dif_pos (show (1 : Fin S2x192x128.rank) ∈ dot_S2x192x128_S2x128x128_S2x192x128_2_1_1_2_0_0.lhsNonContracting by decide)]
  rfl
/-- and runs over the contraction on its last axis; -/
theorem lhsB_2 (i : S2x192x128.Idx) (q : dot_S2x192x128_S2x128x128_S2x192x128_2_1_1_2_0_0.contr.Idx) :
    (dot_S2x192x128_S2x128x128_S2x192x128_2_1_1_2_0_0.lhsIdx i q 2).val = (q ⟨0, by decide⟩).val :=
  dot_S2x192x128_S2x128x128_S2x192x128_2_1_1_2_0_0.lhsIdx_val_of_single rfl i q
/-- the right index keeps the batch and the column, and runs over the contraction on its middle axis. -/
theorem rhsB_0 (i : S2x192x128.Idx) (q : dot_S2x192x128_S2x128x128_S2x192x128_2_1_1_2_0_0.contr.Idx) :
    (dot_S2x192x128_S2x128x128_S2x192x128_2_1_1_2_0_0.rhsIdx i q 0).val = (i 0).val := by
  unfold DotDims.rhsIdx
  rw [dif_pos (show (0 : Fin S2x128x128.rank) ∈ dot_S2x192x128_S2x128x128_S2x192x128_2_1_1_2_0_0.rhsBatch by decide)]
  rfl
theorem rhsB_1 (i : S2x192x128.Idx) (q : dot_S2x192x128_S2x128x128_S2x192x128_2_1_1_2_0_0.contr.Idx) :
    (dot_S2x192x128_S2x128x128_S2x192x128_2_1_1_2_0_0.rhsIdx i q 1).val = (q ⟨0, by decide⟩).val :=
  dot_S2x192x128_S2x128x128_S2x192x128_2_1_1_2_0_0.rhsIdx_val_of_single rfl i q
theorem rhsB_2 (i : S2x192x128.Idx) (q : dot_S2x192x128_S2x128x128_S2x192x128_2_1_1_2_0_0.contr.Idx) :
    (dot_S2x192x128_S2x128x128_S2x192x128_2_1_1_2_0_0.rhsIdx i q 2).val = (i 2).val := by
  unfold DotDims.rhsIdx
  rw [dif_neg (show ¬(2 : Fin S2x128x128.rank) ∈ dot_S2x192x128_S2x128x128_S2x192x128_2_1_1_2_0_0.rhsBatch by decide), dif_pos (show (2 : Fin S2x128x128.rank) ∈ dot_S2x192x128_S2x128x128_S2x192x128_2_1_1_2_0_0.rhsNonContracting by decide)]
  rfl

/-- The read-out product [64,512] x [512,128]: the left index is (row, contraction), -/
theorem lhsR_0 (i : S64x128.Idx) (q : dot_S64x512_S512x128_S64x128_1_0_0_1_n_n.contr.Idx) :
    (dot_S64x512_S512x128_S64x128_1_0_0_1_n_n.lhsIdx i q 0).val = (i 0).val := by
  unfold DotDims.lhsIdx
  rw [dif_neg (show ¬(0 : Fin S64x512.rank) ∈ dot_S64x512_S512x128_S64x128_1_0_0_1_n_n.lhsBatch by decide), dif_pos (show (0 : Fin S64x512.rank) ∈ dot_S64x512_S512x128_S64x128_1_0_0_1_n_n.lhsNonContracting by decide)]
  rfl
theorem lhsR_1 (i : S64x128.Idx) (q : dot_S64x512_S512x128_S64x128_1_0_0_1_n_n.contr.Idx) :
    (dot_S64x512_S512x128_S64x128_1_0_0_1_n_n.lhsIdx i q 1).val = (q ⟨0, by decide⟩).val :=
  dot_S64x512_S512x128_S64x128_1_0_0_1_n_n.lhsIdx_val_of_single rfl i q
/-- the right index (contraction, column). -/
theorem rhsR_0 (i : S64x128.Idx) (q : dot_S64x512_S512x128_S64x128_1_0_0_1_n_n.contr.Idx) :
    (dot_S64x512_S512x128_S64x128_1_0_0_1_n_n.rhsIdx i q 0).val = (q ⟨0, by decide⟩).val :=
  dot_S64x512_S512x128_S64x128_1_0_0_1_n_n.rhsIdx_val_of_single rfl i q
theorem rhsR_1 (i : S64x128.Idx) (q : dot_S64x512_S512x128_S64x128_1_0_0_1_n_n.contr.Idx) :
    (dot_S64x512_S512x128_S64x128_1_0_0_1_n_n.rhsIdx i q 1).val = (i 1).val := by
  unfold DotDims.rhsIdx
  rw [dif_neg (show ¬(1 : Fin S512x128.rank) ∈ dot_S64x512_S512x128_S64x128_1_0_0_1_n_n.rhsBatch by decide), dif_pos (show (1 : Fin S512x128.rank) ∈ dot_S64x512_S512x128_S64x128_1_0_0_1_n_n.rhsNonContracting by decide)]
  rfl

end Dots

/-! ## The batched product -/

/-- The left operand of the batched product: the signal's block (the same for both edge features) over the two
    carried states' blocks, stacked along the rows. -/
def stackedLhs (v25 : Vec Ideal S64x128 .f32) (v26 v27 : Vec Ideal S2x64x128 .f32) : FVec Ideal S2x192x128 .f32 :=
  concatenate S2x192x128 1
    [⟨S2x64x128, broadcastTo S2x64x128 (shapeCast S1x64x128 (shapeCast S1x64x128 v25 shapeCasts_S64x128_S1x64x128) shapeCasts_S1x64x128_S1x64x128) broadcasts_S1x64x128_S2x64x128⟩,
     ⟨S2x64x128, v26⟩, ⟨S2x64x128, v27⟩]
    concatenates_S2x64x128_S2x64x128_S2x64x128_S2x192x128_d1

theorem stackedLhs_block0 (v25 : Vec Ideal S64x128 .f32) (v26 v27 : Vec Ideal S2x64x128 .f32) (e : Fin 2) (f : Fin 64) (n : Fin 128)
    (r : Fin 192) (hr : r.val = f.val) : stackedLhs v25 v26 v27 (ix3 e r n) = v25 (ix2 f n) := by
  unfold stackedLhs
  refine (concat3_axis1_apply _ _ _ _ 0 e f n r (by show r.val = 0 * 64 + f.val; omega)).trans ?_
  exact rebatch_apply v25 shapeCasts_S64x128_S1x64x128 shapeCasts_S1x64x128_S1x64x128 broadcasts_S1x64x128_S2x64x128 e f n

theorem stackedLhs_block1 (v25 : Vec Ideal S64x128 .f32) (v26 v27 : Vec Ideal S2x64x128 .f32) (e : Fin 2) (f : Fin 64) (n : Fin 128)
    (r : Fin 192) (hr : r.val = 64 + f.val) : stackedLhs v25 v26 v27 (ix3 e r n) = v26 (ix3 e f n) := by
  unfold stackedLhs
  exact concat3_axis1_apply _ _ _ _ 1 e f n r (by show r.val = 1 * 64 + f.val; omega)

theorem stackedLhs_block2 (v25 : Vec Ideal S64x128 .f32) (v26 v27 : Vec Ideal S2x64x128 .f32) (e : Fin 2) (f : Fin 64) (n : Fin 128)
    (r : Fin 192) (hr : r.val = 128 + f.val) : stackedLhs v25 v26 v27 (ix3 e r n) = v27 (ix3 e f n) := by
  unfold stackedLhs
  exact concat3_axis1_apply _ _ _ _ 2 e f n r (by show r.val = 2 * 64 + f.val; omega)

/-- The batched product at (edge feature, row, node): the stacked left operand's row against the shift operator's column. -/
theorem pay9_apply (v23 : Vec Ideal S1x1x2x128x128 .f32) (v25 : Vec Ideal S64x128 .f32) (v26 v27 : Vec Ideal S2x64x128 .f32)
    (e : Fin 2) (r : Fin 192) (p : Fin 128) :
    k0_pay9 (F := Ideal) v23 v25 v26 v27 (ix3 e r p)
      = ∑ n : Fin 128, stackedLhs v25 v26 v27 (ix3 e r n) * v23 (ix5 0 0 e n p) := by
  unfold k0_pay9
  refine (Ideal.matmul_constant_zero_apply dot_S2x192x128_S2x128x128_S2x192x128_2_1_1_2_0_0 none _ _ (ix3 e r p)).trans ?_
  rw [← Equiv.sum_comp (contrEquiv1 dot_S2x192x128_S2x128x128_S2x192x128_2_1_1_2_0_0 128 rfl rfl).symm]
  refine Finset.sum_congr rfl fun k _ => ?_
  have hk := contrEquiv1_symm_val dot_S2x192x128_S2x128x128_S2x192x128_2_1_1_2_0_0 128 rfl rfl k
  have el : dot_S2x192x128_S2x128x128_S2x192x128_2_1_1_2_0_0.lhsIdx (ix3 e r p) ((contrEquiv1 dot_S2x192x128_S2x128x128_S2x192x128_2_1_1_2_0_0 128 rfl rfl).symm k) = ix3 e r k := funext fun a => Fin.ext (by
    match a with
    | ⟨0, _⟩ => exact lhsB_0 _ _
    | ⟨1, _⟩ => exact lhsB_1 _ _
    | ⟨2, _⟩ => exact (lhsB_2 _ _).trans hk)
  have er : dot_S2x192x128_S2x128x128_S2x192x128_2_1_1_2_0_0.rhsIdx (ix3 e r p) ((contrEquiv1 dot_S2x192x128_S2x128x128_S2x192x128_2_1_1_2_0_0 128 rfl rfl).symm k) = ix3 e k p := funext fun a => Fin.ext (by
    match a with
    | ⟨0, _⟩ => exact rhsB_0 _ _
    | ⟨1, _⟩ => exact (rhsB_1 _ _).trans hk
    | ⟨2, _⟩ => exact rhsB_2 _ _)
  rw [el, er]
  exact congrArg (stackedLhs v25 v26 v27 (ix3 e r k) * ·) (cast5_3_apply v23 _ e k p)

theorem pay10_apply (v23 : Vec Ideal S1x1x2x128x128 .f32) (v25 : Vec Ideal S64x128 .f32) (v26 v27 : Vec Ideal S2x64x128 .f32)
    (e : Fin 2) (f : Fin 64) (p : Fin 128) :
    k0_pay10 (F := Ideal) v23 v25 v26 v27 (ix3 e f p) = ∑ n : Fin 128, v25 (ix2 f n) * v23 (ix5 0 0 e n p) := by
  unfold k0_pay10
  refine Eq.trans (slice3_axis1_apply (n1 := 192) 0 (k0_pay9 (F := Ideal) v23 v25 v26 v27) slices_S2x192x128_o0_0_0_S2x64x128 e f p ⟨f.val, by omega⟩ (Nat.zero_add _).symm) ?_
  refine (pay9_apply v23 v25 v26 v27 e _ p).trans ?_
  exact Finset.sum_congr rfl fun n _ => congrArg (· * v23 (ix5 0 0 e n p)) (stackedLhs_block0 v25 v26 v27 e f n _ rfl)

theorem pay11_apply (v23 : Vec Ideal S1x1x2x128x128 .f32) (v25 : Vec Ideal S64x128 .f32) (v26 v27 : Vec Ideal S2x64x128 .f32)
    (e : Fin 2) (f : Fin 64) (p : Fin 128) :
    k0_pay11 (F := Ideal) v23 v25 v26 v27 (ix3 e f p) = ∑ n : Fin 128, v26 (ix3 e f n) * v23 (ix5 0 0 e n p) := by
  unfold k0_pay11
  refine Eq.trans (slice3_axis1_apply (n1 := 192) 64 (k0_pay9 (F := Ideal) v23 v25 v26 v27) slices_S2x192x128_o0_64_0_S2x64x128 e f p ⟨64 + f.val, by omega⟩ rfl) ?_
  refine (pay9_apply v23 v25 v26 v27 e _ p).trans ?_
  exact Finset.sum_congr rfl fun n _ => congrArg (· * v23 (ix5 0 0 e n p)) (stackedLhs_block1 v25 v26 v27 e f n _ rfl)

/-- The third block of the batched product, cut out at row 128. -/
theorem third_apply (v23 : Vec Ideal S1x1x2x128x128 .f32) (v25 : Vec Ideal S64x128 .f32) (v26 v27 : Vec Ideal S2x64x128 .f32)
    (e : Fin 2) (f : Fin 64) (p : Fin 128) :
    extractStridedSlice S2x64x128 ![0, 128, 0] (k0_pay9 (F := Ideal) v23 v25 v26 v27) slices_S2x192x128_o0_128_0_S2x64x128 (ix3 e f p)
      = ∑ n : Fin 128, v27 (ix3 e f n) * v23 (ix5 0 0 e n p) := by
  refine Eq.trans (slice3_axis1_apply (n1 := 192) 128 (k0_pay9 (F := Ideal) v23 v25 v26 v27) slices_S2x192x128_o0_128_0_S2x64x128 e f p ⟨128 + f.val, by omega⟩ rfl) ?_
  refine (pay9_apply v23 v25 v26 v27 e _ p).trans ?_
  exact Finset.sum_congr rfl fun n _ => congrArg (· * v23 (ix5 0 0 e n p)) (stackedLhs_block2 v25 v26 v27 e f n _ rfl)

/-! ## The fills and the rebindings -/

theorem pay1_apply (i : S64x128.Idx) : k0_pay1 (F := Ideal) i = Cert.TapFilter.zero := by
  unfold k0_pay1
  rw [shapeCast_self]
  rfl

theorem pay2_apply (i : S2x64x128.Idx) : k0_pay2 (F := Ideal) i = Cert.TapFilter.zero := by
  unfold k0_pay2
  rw [shapeCast_self]
  rfl

theorem pay3_apply (i : S2x64x128.Idx) : k0_pay3 (F := Ideal) i = Cert.TapFilter.zero := by
  unfold k0_pay3
  rw [shapeCast_self]
  rfl

theorem pay5_eq (v36 : FVec Ideal S2x64x128 .f32) : k0_pay5 (F := Ideal) v36 = v36 := by
  unfold k0_pay5
  exact shapeCast_self _ _

theorem pay6_eq (v37 : FVec Ideal S2x64x128 .f32) : k0_pay6 (F := Ideal) v37 = v37 := by
  unfold k0_pay6
  exact shapeCast_self _ _

theorem pay7_eq (v21 : FVec Ideal S64x128 .f32) : k0_pay7 (F := Ideal) v21 = v21 := by
  unfold k0_pay7
  exact shapeCast_self _ _

/-- The signal of the step, its two unit axes dropped. -/
theorem pay8_apply (v20 : Vec Ideal S1x1x64x128 .f32) (f : Fin 64) (n : Fin 128) :
    k0_pay8 (F := Ideal) v20 (ix2 f n) = v20 (ix4 0 0 f n) := by
  unfold k0_pay8
  exact cast4_2_apply v20 _ f n

/-! ## The 512 stacked rows -/

section StackRows
variable (t0 : Fin 64 → Fin 128 → EReal) (t1 t2 t3 : Fin 2 → Fin 64 → Fin 128 → EReal)

/-- Row `e * 256 + f` of the stack is row `f` of the first block, whatever the edge feature `e`. -/
theorem stackRows_block0 (j : Fin 512) (n : Fin 128) (e : Fin 2) (f : Fin 64) (hj : j.val = e.val * 256 + f.val) :
    Cert.TapFilter.stackRows t0 t1 t2 t3 j n = t0 f n := by
  have h0 : j.val / 64 % 4 = 0 := by omega
  unfold Cert.TapFilter.stackRows
  rw [if_pos h0]
  exact congrArg (fun x => t0 x n) (Fin.ext (by show j.val % 64 = f.val; omega))

/-- Row `e * 256 + 64 + f` is row `f` of the second block at edge feature `e`. -/
theorem stackRows_block1 (j : Fin 512) (n : Fin 128) (e : Fin 2) (f : Fin 64) (hj : j.val = e.val * 256 + 64 + f.val) :
    Cert.TapFilter.stackRows t0 t1 t2 t3 j n = t1 e f n := by
  have h0 : ¬ j.val / 64 % 4 = 0 := by omega
  have h1 : j.val / 64 % 4 = 1 := by omega
  unfold Cert.TapFilter.stackRows
  rw [if_neg h0, if_pos h1]
  exact congrArg₂ (fun x y => t1 x y n) (Fin.ext (by show j.val / 256 = e.val; omega)) (Fin.ext (by show j.val % 64 = f.val; omega))

/-- Row `e * 256 + 128 + f` is row `f` of the third block at edge feature `e`. -/
theorem stackRows_block2 (j : Fin 512) (n : Fin 128) (e : Fin 2) (f : Fin 64) (hj : j.val = e.val * 256 + 128 + f.val) :
    Cert.TapFilter.stackRows t0 t1 t2 t3 j n = t2 e f n := by
  have h0 : ¬ j.val / 64 % 4 = 0 := by omega
  have h1 : ¬ j.val / 64 % 4 = 1 := by omega
  have h2 : j.val / 64 % 4 = 2 := by omega
  unfold Cert.TapFilter.stackRows
  rw [if_neg h0, if_neg h1, if_pos h2]
  exact congrArg₂ (fun x y => t2 x y n) (Fin.ext (by show j.val / 256 = e.val; omega)) (Fin.ext (by show j.val % 64 = f.val; omega))

/-- Row `e * 256 + 192 + f` is row `f` of the fourth block at edge feature `e`. -/
theorem stackRows_block3 (j : Fin 512) (n : Fin 128) (e : Fin 2) (f : Fin 64) (hj : j.val = e.val * 256 + 192 + f.val) :
    Cert.TapFilter.stackRows t0 t1 t2 t3 j n = t3 e f n := by
  have h0 : ¬ j.val / 64 % 4 = 0 := by omega
  have h1 : ¬ j.val / 64 % 4 = 1 := by omega
  have h2 : ¬ j.val / 64 % 4 = 2 := by omega
  unfold Cert.TapFilter.stackRows
  rw [if_neg h0, if_neg h1, if_neg h2]
  exact congrArg₂ (fun x y => t3 x y n) (Fin.ext (by show j.val / 256 = e.val; omega)) (Fin.ext (by show j.val % 64 = f.val; omega))

end StackRows

/-- The eight 64-row pieces of the stack: the signal and the three blocks of the batched product for edge feature 0,
    then the same for edge feature 1. -/
theorem pay12_apply (v20 : Vec Ideal S1x1x64x128 .f32) (v23 : Vec Ideal S1x1x2x128x128 .f32) (v25 : Vec Ideal S64x128 .f32)
    (v26 v27 : Vec Ideal S2x64x128 .f32) (j : Fin 512) (n : Fin 128) :
    k0_pay12 (F := Ideal) v20 v23 v25 v26 v27 (ix2 j n)
      = Cert.TapFilter.stackRows (fun f n => v20 (ix4 0 0 f n))
          (fun e f p => ∑ n : Fin 128, v25 (ix2 f n) * v23 (ix5 0 0 e n p))
          (fun e f p => ∑ n : Fin 128, v26 (ix3 e f n) * v23 (ix5 0 0 e n p))
          (fun e f p => ∑ n : Fin 128, v27 (ix3 e f n) * v23 (ix5 0 0 e n p)) j n := by
  have hjlt : j.val < 512 := j.isLt
  have hf : j.val % 64 < 64 := Nat.mod_lt _ (by omega)
  unfold k0_pay12
  obtain h | h | h | h | h | h | h | h : j.val / 64 = 0 ∨ j.val / 64 = 1 ∨ j.val / 64 = 2 ∨ j.val / 64 = 3 ∨ j.val / 64 = 4 ∨ j.val / 64 = 5 ∨ j.val / 64 = 6 ∨ j.val / 64 = 7 := by omega
  · refine (concat8_rows_apply _ _ _ _ _ _ _ _ _ 0 ⟨j.val % 64, hf⟩ n j (by show j.val = 0 * 64 + j.val % 64; omega)).trans ?_
    refine Eq.trans ?_ (stackRows_block0 _ _ _ _ j n 0 ⟨j.val % 64, hf⟩ (by show j.val = 0 * 256 + j.val % 64; omega)).symm
    exact pay8_apply v20 _ n
  · refine (concat8_rows_apply _ _ _ _ _ _ _ _ _ 1 ⟨j.val % 64, hf⟩ n j (by show j.val = 1 * 64 + j.val % 64; omega)).trans ?_
    refine Eq.trans ?_ (stackRows_block1 _ _ _ _ j n 0 ⟨j.val % 64, hf⟩ (by show j.val = 0 * 256 + 64 + j.val % 64; omega)).symm
    exact (unbatch_apply _ 0 slices_S2x64x128_o0_0_0_S1x64x128 shapeCasts_S1x64x128_S64x128 0 rfl _ n).trans (pay10_apply v23 v25 v26 v27 0 _ n)
  · refine (concat8_rows_apply _ _ _ _ _ _ _ _ _ 2 ⟨j.val % 64, hf⟩ n j (by show j.val = 2 * 64 + j.val % 64; omega)).trans ?_
    refine Eq.trans ?_ (stackRows_block2 _ _ _ _ j n 0 ⟨j.val % 64, hf⟩ (by show j.val = 0 * 256 + 128 + j.val % 64; omega)).symm
    exact (unbatch_apply _ 0 slices_S2x64x128_o0_0_0_S1x64x128 shapeCasts_S1x64x128_S64x128 0 rfl _ n).trans (pay11_apply v23 v25 v26 v27 0 _ n)
  · refine (concat8_rows_apply _ _ _ _ _ _ _ _ _ 3 ⟨j.val % 64, hf⟩ n j (by show j.val = 3 * 64 + j.val % 64; omega)).trans ?_
    refine Eq.trans ?_ (stackRows_block3 _ _ _ _ j n 0 ⟨j.val % 64, hf⟩ (by show j.val = 0 * 256 + 192 + j.val % 64; omega)).symm
    exact (unbatch_apply _ 0 slices_S2x64x128_o0_0_0_S1x64x128 shapeCasts_S1x64x128_S64x128 0 rfl _ n).trans (third_apply v23 v25 v26 v27 0 _ n)
  · refine (concat8_rows_apply _ _ _ _ _ _ _ _ _ 4 ⟨j.val % 64, hf⟩ n j (by show j.val = 4 * 64 + j.val % 64; omega)).trans ?_
    refine Eq.trans ?_ (stackRows_block0 _ _ _ _ j n 1 ⟨j.val % 64, hf⟩ (by show j.val = 1 * 256 + j.val % 64; omega)).symm
    exact pay8_apply v20 _ n
  · refine (concat8_rows_apply _ _ _ _ _ _ _ _ _ 5 ⟨j.val % 64, hf⟩ n j (by show j.val = 5 * 64 + j.val % 64; omega)).trans ?_
    refine Eq.trans ?_ (stackRows_block1 _ _ _ _ j n 1 ⟨j.val % 64, hf⟩ (by show j.val = 1 * 256 + 64 + j.val % 64; omega)).symm
    exact (unbatch_apply _ 1 slices_S2x64x128_o1_0_0_S1x64x128 shapeCasts_S1x64x128_S64x128 1 rfl _ n).trans (pay10_apply v23 v25 v26 v27 1 _ n)
  · refine (concat8_rows_apply _ _ _ _ _ _ _ _ _ 6 ⟨j.val % 64, hf⟩ n j (by show j.val = 6 * 64 + j.val % 64; omega)).trans ?_
    refine Eq.trans ?_ (stackRows_block2 _ _ _ _ j n 1 ⟨j.val % 64, hf⟩ (by show j.val = 1 * 256 + 128 + j.val % 64; omega)).symm
    exact (unbatch_apply _ 1 slices_S2x64x128_o1_0_0_S1x64x128 shapeCasts_S1x64x128_S64x128 1 rfl _ n).trans (pay11_apply v23 v25 v26 v27 1 _ n)
  · refine (concat8_rows_apply _ _ _ _ _ _ _ _ _ 7 ⟨j.val % 64, hf⟩ n j (by show j.val = 7 * 64 + j.val % 64; omega)).trans ?_
    refine Eq.trans ?_ (stackRows_block3 _ _ _ _ j n 1 ⟨j.val % 64, hf⟩ (by show j.val = 1 * 256 + 192 + j.val % 64; omega)).symm
    exact (unbatch_apply _ 1 slices_S2x64x128_o1_0_0_S1x64x128 shapeCasts_S1x64x128_S64x128 1 rfl _ n).trans (third_apply v23 v25 v26 v27 1 _ n)

/-! ## The read-out -/

/-- The stored result: the 512 stacked rows against the read-out matrix's row, plus the bias of the row. -/
theorem pay4_apply (v12 : Vec Ideal S64x512 .f32) (v15 : Vec Ideal S64x1 .f32) (v57 : FVec Ideal S512x128 .bf16) (o : Fin 64) (n : Fin 128) :
    k0_pay4 (F := Ideal) v12 v15 v57 (ix4 0 0 o n) = Cert.TapFilter.readout v12 v15 (fun j n => v57 (ix2 j n)) o n := by
  unfold k0_pay4 Cert.TapFilter.readout
  refine (cast2_4_apply _ _ o n).trans ?_
  refine (addf_apply _ _ _).trans ?_
  refine congrArg₂ (· + ·) ?_ (Idealize.ShloMosaic.ColumnLayout.broadcastTo_a1_ab_apply v15 _ o n)
  refine (Ideal.matmul_constant_zero_apply dot_S64x512_S512x128_S64x128_1_0_0_1_n_n none _ _ (ix2 o n)).trans ?_
  rw [← Equiv.sum_comp (contrEquiv1 dot_S64x512_S512x128_S64x128_1_0_0_1_n_n 512 rfl rfl).symm]
  refine Finset.sum_congr rfl fun k _ => ?_
  have hk := contrEquiv1_symm_val dot_S64x512_S512x128_S64x128_1_0_0_1_n_n 512 rfl rfl k
  have el : dot_S64x512_S512x128_S64x128_1_0_0_1_n_n.lhsIdx (ix2 o n) ((contrEquiv1 dot_S64x512_S512x128_S64x128_1_0_0_1_n_n 512 rfl rfl).symm k) = ix2 o k := funext fun a => Fin.ext (by
    match a with
    | ⟨0, _⟩ => exact lhsR_0 _ _
    | ⟨1, _⟩ => exact (lhsR_1 _ _).trans hk)
  have er : dot_S64x512_S512x128_S64x128_1_0_0_1_n_n.rhsIdx (ix2 o n) ((contrEquiv1 dot_S64x512_S512x128_S64x128_1_0_0_1_n_n 512 rfl rfl).symm k) = ix2 k n := funext fun a => Fin.ext (by
    match a with
    | ⟨0, _⟩ => exact (rhsR_0 _ _).trans hk
    | ⟨1, _⟩ => exact rhsR_1 _ _)
  rw [el, er]
  exact congrArg (· * v57 (ix2 k n)) (congrFun (shapeCast_self v12 _) (ix2 o k))

end Cert.KernelIdeal.Payload

end
-- ==== Proof.LoopValue.lean ====
/-
  What the kernel's body leaves in its output block, as a value: one batch filtered.

  The body zeroes three scratch buffers (the delayed signal, and the first and second taps one step earlier) and then
  runs 64 time steps. Step `j` reads the signal and the shift operators of time `j` and the three scratch buffers,
  stores output row `j`, and leaves in the scratch buffers what step `j + 1` needs: the signal of time `j`, and taps
  one and two of time `j`. So before step `j` the scratch buffers hold `delayed · j` of the signal, of tap one and of
  tap two, and the rows before `j` of the output hold the filtered batch: an induction on `j`, one step of which
  is the body's arithmetic read at an index.
-/
import proofs.«130758_j26628797235681_2_alg».proof.Proof.KernelIdealRun
import proofs.«130758_j26628797235681_2_alg».proof.Proof.Payload
import proofs.«130758_j26628797235681_2_alg».proof.Proof.Spec
import Idealize.ShloMosaic.Lib.WritesUnit
import Idealize.ShloMosaic.Lib.Pipeline.Value

set_option maxRecDepth 16384

noncomputable section

namespace Cert.KernelIdeal.LoopValue

open Cert.KernelIdeal Cert.KernelIdeal.Gen Idealize.ShloMosaic Idealize.ShloMosaic.TcCoe Idealize.ShloMosaic.ValueIdx Idealize.SL.Sem
open Idealize.ShloMosaic.Tactic
open Cert.TapFilter (zero delayed tap)

/-- The batch's signal, read off the block the body is given: time, feature, node. -/
def sigOf (x0 : Vec Ideal S1x64x64x128 .f32) : Fin 64 → Fin 64 → Fin 128 → EReal := fun t f n => x0 (ix4 0 t f n)

/-- The batch's shift operators, read off the block the body is given: time, edge feature, node, node. -/
def opOf (x1 : Vec Ideal S1x64x2x128x128 .f32) : Fin 64 → Fin 2 → Fin 128 → Fin 128 → EReal := fun t e n p => x1 (ix5 0 t e n p)

/-- The output block: the batch filtered, at (time, output row, node). -/
def Gout (x0 : Vec Ideal S1x64x64x128 .f32) (x1 : Vec Ideal S1x64x2x128x128 .f32) (x2 : Vec Ideal S64x512 .f32) (x3 : Vec Ideal S64x1 .f32) :
    Vec Ideal S1x64x64x128 .f32 :=
  fun y => Cert.TapFilter.filtered (sigOf x0) (opOf x1) x2 x3 (y 1) (y 2) (y 3)

/-! ## Reading a whole buffer -/

theorem hz2 : (![0, 0] : Fin 2 → Nat) = fun _ => 0 := funext fun a => by fin_cases a <;> rfl
theorem hz3 : (![0, 0, 0] : Fin 3 → Nat) = fun _ => 0 := funext fun a => by fin_cases a <;> rfl

/-- A buffer whose last store went through the whole-shape rectangle reads that store's payload. -/
theorem read_writes_whole {sig : RefSig} {κ : Kind} {sp : Space} {S : Shape} {e : EltTy} {Val : EltTy → Type}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-- A load through the whole-shape rectangle reads the buffer. -/
theorem readAt_whole {sig : RefSig} {κ : Kind} {sp : Space} {S : Shape} {e : EltTy} {Val : EltTy → Type}
    (v : View sig κ sp S e) (f : v.ty.Contents Val) {off : Fin S.rank → Nat} (h : off = fun _ => 0)
    (inb : ∀ a, off a + S.size a ≤ S.size a) :
    View.readAt Val v (Rect.unit off S.size inb).toLoadRect f = v.read Val f := by
  rw [View.readAt_eq_ld]; exact View.ld_unit_zero h inb _

/-- The loop runs 64 times. -/
theorem trips_eq : k0_t1_loop.trips = 64 := by decide +kernel

section Trip

variable (𝒱 : Variants) (c : Dev nD) (bd : Option 𝒱.V) (i : grid0.Coords) (arg1 : Memref sig .tc .vmem S1x64x64x128 .f32) (harg1 : arg1.IsWhole) (arg2 : Memref sig .tc .vmem S1x64x2x128x128 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S1x64x64x128 .f32) (harg5 : arg5.IsWhole) (arg6 : Memref sig .tc .vmem S64x128 .f32) (harg6 : arg6.IsWhole) (arg7 : Memref sig .tc .vmem S2x64x128 .f32) (harg7 : arg7.IsWhole) (arg8 : Memref sig .tc .vmem S2x64x128 .f32) (harg8 : arg8.IsWhole)
variable (v12 : Vec Ideal S64x512 .f32) (v15 : Vec Ideal S64x1 .f32)
variable (X1 : BufTy.Contents (Elt Ideal) arg1.view.ty) (X2 : BufTy.Contents (Elt Ideal) arg2.view.ty)

/-- What one step stores, buffer by buffer: one piece each — the output's row of this step, the signal of this
    step, and the first two diffusion products — over what the step loads. -/
theorem trip_pieces (k : Fin k0_t1_loop.trips) (f5 : BufTy.Contents (Elt Ideal) arg5.view.ty) (f6 : BufTy.Contents (Elt Ideal) arg6.view.ty)
    (f7 : BufTy.Contents (Elt Ideal) arg7.view.ty) (f8 : BufTy.Contents (Elt Ideal) arg8.view.ty) :
    tripL_k0_t1 (F := Ideal) 𝒱 c bd i arg1 harg1 arg2 harg2 arg3 harg3 arg4 harg4 arg5 harg5 arg6 harg6 arg7 harg7 arg8 harg8 v12 v15 X1 X2 k f5 f6 f7 f8
      = ([⟨Rect.unit (s := S1x64x64x128) (k0_off1 k) S1x1x64x128.size (k0_off1_inb k),
            k0_pay4 v12 v15 (k0_pay12
              (View.readAt (Elt Ideal) arg1.view (Rect.unit (s := S1x64x64x128) (k0_off1 k) S1x1x64x128.size (k0_off1_inb k)).toLoadRect X1)
              (View.readAt (Elt Ideal) arg2.view (Rect.unit (s := S1x64x2x128x128) (k0_off2 k) S1x1x2x128x128.size (k0_off2_inb k)).toLoadRect X2)
              (View.readAt (Elt Ideal) arg6.view (Rect.unit ![0, 0] S64x128.size inb_S64x128_S64x128_0_0).toLoadRect f6)
              (View.readAt (Elt Ideal) arg7.view (Rect.unit ![0, 0, 0] S2x64x128.size inb_S2x64x128_S2x64x128_0_0_0).toLoadRect f7)
              (View.readAt (Elt Ideal) arg8.view (Rect.unit ![0, 0, 0] S2x64x128.size inb_S2x64x128_S2x64x128_0_0_0).toLoadRect f8))⟩],
         [⟨Rect.unit ![0, 0] S64x128.size inb_S64x128_S64x128_0_0,
            k0_pay7 (k0_pay8 (View.readAt (Elt Ideal) arg1.view (Rect.unit (s := S1x64x64x128) (k0_off1 k) S1x1x64x128.size (k0_off1_inb k)).toLoadRect X1))⟩],
         [⟨Rect.unit ![0, 0, 0] S2x64x128.size inb_S2x64x128_S2x64x128_0_0_0,
            k0_pay5 (k0_pay10
              (View.readAt (Elt Ideal) arg2.view (Rect.unit (s := S1x64x2x128x128) (k0_off2 k) S1x1x2x128x128.size (k0_off2_inb k)).toLoadRect X2)
              (View.readAt (Elt Ideal) arg6.view (Rect.unit ![0, 0] S64x128.size inb_S64x128_S64x128_0_0).toLoadRect f6)
              (View.readAt (Elt Ideal) arg7.view (Rect.unit ![0, 0, 0] S2x64x128.size inb_S2x64x128_S2x64x128_0_0_0).toLoadRect f7)
              (View.readAt (Elt Ideal) arg8.view (Rect.unit ![0, 0, 0] S2x64x128.size inb_S2x64x128_S2x64x128_0_0_0).toLoadRect f8))⟩],
         [⟨Rect.unit ![0, 0, 0] S2x64x128.size inb_S2x64x128_S2x64x128_0_0_0,
            k0_pay6 (k0_pay11
              (View.readAt (Elt Ideal) arg2.view (Rect.unit (s := S1x64x2x128x128) (k0_off2 k) S1x1x2x128x128.size (k0_off2_inb k)).toLoadRect X2)
              (View.readAt (Elt Ideal) arg6.view (Rect.unit ![0, 0] S64x128.size inb_S64x128_S64x128_0_0).toLoadRect f6)
              (View.readAt (Elt Ideal) arg7.view (Rect.unit ![0, 0, 0] S2x64x128.size inb_S2x64x128_S2x64x128_0_0_0).toLoadRect f7)
              (View.readAt (Elt Ideal) arg8.view (Rect.unit ![0, 0, 0] S2x64x128.size inb_S2x64x128_S2x64x128_0_0_0).toLoadRect f8))⟩]) := by
  unfold tripL_k0_t1 trip_k0_t1
  dsimp only
  sl_unfold_run_names
  rfl

end Trip

/-! ## One step's arithmetic -/

section Step

variable (arg1 : Memref sig .tc .vmem S1x64x64x128 .f32) (harg1 : arg1.IsWhole) (arg2 : Memref sig .tc .vmem S1x64x2x128x128 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S1x64x64x128 .f32) (harg5 : arg5.IsWhole) (arg6 : Memref sig .tc .vmem S64x128 .f32) (harg6 : arg6.IsWhole) (arg7 : Memref sig .tc .vmem S2x64x128 .f32) (harg7 : arg7.IsWhole) (arg8 : Memref sig .tc .vmem S2x64x128 .f32) (harg8 : arg8.IsWhole)
variable (x0 : Vec Ideal S1x64x64x128 .f32) (x1 : Vec Ideal S1x64x2x128x128 .f32)
variable (X1 : BufTy.Contents (Elt Ideal) arg1.view.ty) (X2 : BufTy.Contents (Elt Ideal) arg2.view.ty)
variable (hX1 : arg1.view.read (Elt Ideal) X1 = x0) (hX2 : arg2.view.read (Elt Ideal) X2 = x1)

include hX1 in
/-- Step `k` loads the signal of time `k`. -/
theorem sig_load (k : Fin k0_t1_loop.trips) (hk : k.val < 64) (f : Fin 64) (n : Fin 128) :
    (View.readAt (Elt Ideal) arg1.view (Rect.unit (s := S1x64x64x128) (k0_off1 k) S1x1x64x128.size (k0_off1_inb k)).toLoadRect X1) (ix4 0 0 f n) = sigOf x0 ⟨k.val, hk⟩ f n := by
  rw [View.readAt_eq_ld, hX1]
  refine congrArg x0 (funext fun a => Fin.ext ?_)
  have ho := congrFun (k0_off1_eq k) a
  show (k0_off1 k) a + 1 * ((ix4 (0 : Fin 1) (0 : Fin 1) f n) a).val = ((ix4 (0 : Fin 1) (⟨k.val, hk⟩ : Fin 64) f n) a).val
  rw [ho]
  match a with
  | ⟨0, _⟩ => rfl
  | ⟨1, _⟩ => show k.val + 1 * 0 = k.val; omega
  | ⟨2, _⟩ => show 0 + 1 * f.val = f.val; omega
  | ⟨3, _⟩ => show 0 + 1 * n.val = n.val; omega

include hX2 in
/-- Step `k` loads the shift operators of time `k`. -/
theorem op_load (k : Fin k0_t1_loop.trips) (hk : k.val < 64) (e : Fin 2) (n p : Fin 128) :
    (View.readAt (Elt Ideal) arg2.view (Rect.unit (s := S1x64x2x128x128) (k0_off2 k) S1x1x2x128x128.size (k0_off2_inb k)).toLoadRect X2) (ix5 0 0 e n p) = opOf x1 ⟨k.val, hk⟩ e n p := by
  rw [View.readAt_eq_ld, hX2]
  refine congrArg x1 (funext fun a => Fin.ext ?_)
  have ho := congrFun (k0_off2_eq k) a
  show (k0_off2 k) a + 1 * ((ix5 (0 : Fin 1) (0 : Fin 1) e n p) a).val = ((ix5 (0 : Fin 1) (⟨k.val, hk⟩ : Fin 64) e n p) a).val
  rw [ho]
  match a with
  | ⟨0, _⟩ => rfl
  | ⟨1, _⟩ => show k.val + 1 * 0 = k.val; omega
  | ⟨2, _⟩ => show 0 + 1 * e.val = e.val; omega
  | ⟨3, _⟩ => show 0 + 1 * n.val = n.val; omega
  | ⟨4, _⟩ => show 0 + 1 * p.val = p.val; omega

include hX2 in
/-- A scratch buffer holding a delayed series, carried across the graph by this step's shift operators, is the next
    tap at this step's time. -/
theorem diffuse (k : Fin k0_t1_loop.trips) (hk : k.val < 64) (u : Fin 2 → Fin 64 → Fin 128 → Fin 64 → EReal)
    (b : Fin 2 → Fin 64 → Fin 128 → EReal) (hb : ∀ e f n, b e f n = delayed (u e f n) k.val) (e : Fin 2) (f : Fin 64) (p : Fin 128) :
    (∑ n : Fin 128, b e f n * (View.readAt (Elt Ideal) arg2.view (Rect.unit (s := S1x64x2x128x128) (k0_off2 k) S1x1x2x128x128.size (k0_off2_inb k)).toLoadRect X2) (ix5 0 0 e n p))
      = ∑ n : Fin 128, delayed (u e f n) k.val * opOf x1 ⟨k.val, hk⟩ e n p :=
  Finset.sum_congr rfl fun n _ => by rw [hb e f n, op_load arg2 x1 X2 hX2 k hk e n p]

end Step

/-- Two stackings of rows agree when their blocks agree. -/
theorem stackRows_congr {t0 t0' : Fin 64 → Fin 128 → EReal} {t1 t1' t2 t2' t3 t3' : Fin 2 → Fin 64 → Fin 128 → EReal}
    (h0 : ∀ f n, t0 f n = t0' f n) (h1 : ∀ e f n, t1 e f n = t1' e f n) (h2 : ∀ e f n, t2 e f n = t2' e f n)
    (h3 : ∀ e f n, t3 e f n = t3' e f n) (j : Fin 512) (n : Fin 128) :
    Cert.TapFilter.stackRows t0 t1 t2 t3 j n = Cert.TapFilter.stackRows t0' t1' t2' t3' j n := by
  rw [show t0 = t0' from funext fun f => funext fun n => h0 f n, show t1 = t1' from funext fun e => funext fun f => funext fun n => h1 e f n,
    show t2 = t2' from funext fun e => funext fun f => funext fun n => h2 e f n,
    show t3 = t3' from funext fun e => funext fun f => funext fun n => h3 e f n]

/-! ## One step over what it finds in the scratch buffers -/

section StepValues

variable (arg1 : Memref sig .tc .vmem S1x64x64x128 .f32) (harg1 : arg1.IsWhole) (arg2 : Memref sig .tc .vmem S1x64x2x128x128 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S1x64x64x128 .f32) (harg5 : arg5.IsWhole) (arg6 : Memref sig .tc .vmem S64x128 .f32) (harg6 : arg6.IsWhole) (arg7 : Memref sig .tc .vmem S2x64x128 .f32) (harg7 : arg7.IsWhole) (arg8 : Memref sig .tc .vmem S2x64x128 .f32) (harg8 : arg8.IsWhole)
variable (x0 : Vec Ideal S1x64x64x128 .f32) (x1 : Vec Ideal S1x64x2x128x128 .f32) (v12 : Vec Ideal S64x512 .f32) (v15 : Vec Ideal S64x1 .f32)
variable (X1 : BufTy.Contents (Elt Ideal) arg1.view.ty) (X2 : BufTy.Contents (Elt Ideal) arg2.view.ty)
variable (hX1 : arg1.view.read (Elt Ideal) X1 = x0) (hX2 : arg2.view.read (Elt Ideal) X2 = x1)
variable (k : Fin k0_t1_loop.trips) (hk : k.val < 64)
variable (f6 : BufTy.Contents (Elt Ideal) arg6.view.ty) (f7 : BufTy.Contents (Elt Ideal) arg7.view.ty) (f8 : BufTy.Contents (Elt Ideal) arg8.view.ty)
variable (ih6 : ∀ (f : Fin 64) (n : Fin 128), arg6.view.read (Elt Ideal) f6 (ix2 f n) = delayed (fun s => sigOf x0 s f n) k.val)
variable (ih7 : ∀ (e : Fin 2) (f : Fin 64) (n : Fin 128), arg7.view.read (Elt Ideal) f7 (ix3 e f n)
    = delayed (fun s => tap (sigOf x0) (opOf x1) 1 s e f n) k.val)
variable (ih8 : ∀ (e : Fin 2) (f : Fin 64) (n : Fin 128), arg8.view.read (Elt Ideal) f8 (ix3 e f n)
    = delayed (fun s => tap (sigOf x0) (opOf x1) 2 s e f n) k.val)

include hX2 ih6 in
/-- The delayed signal carried across the graph is tap one at this step's time. -/
theorem prod1 (e : Fin 2) (f : Fin 64) (p : Fin 128) :
    (∑ n : Fin 128, (View.readAt (Elt Ideal) arg6.view (Rect.unit ![0, 0] S64x128.size inb_S64x128_S64x128_0_0).toLoadRect f6) (ix2 f n) * (View.readAt (Elt Ideal) arg2.view (Rect.unit (s := S1x64x2x128x128) (k0_off2 k) S1x1x2x128x128.size (k0_off2_inb k)).toLoadRect X2) (ix5 0 0 e n p)) = tap (sigOf x0) (opOf x1) 1 ⟨k.val, hk⟩ e f p := by
  rw [Cert.TapFilter.tap_one]
  refine Finset.sum_congr rfl fun n _ => ?_
  rw [readAt_whole _ _ hz2, ih6 f n, op_load arg2 x1 X2 hX2 k hk e n p]

include hX2 ih7 in
/-- The delayed tap one carried across the graph is tap two at this step's time. -/
theorem prod2 (e : Fin 2) (f : Fin 64) (p : Fin 128) :
    (∑ n : Fin 128, (View.readAt (Elt Ideal) arg7.view (Rect.unit ![0, 0, 0] S2x64x128.size inb_S2x64x128_S2x64x128_0_0_0).toLoadRect f7) (ix3 e f n) * (View.readAt (Elt Ideal) arg2.view (Rect.unit (s := S1x64x2x128x128) (k0_off2 k) S1x1x2x128x128.size (k0_off2_inb k)).toLoadRect X2) (ix5 0 0 e n p)) = tap (sigOf x0) (opOf x1) 2 ⟨k.val, hk⟩ e f p := by
  refine Eq.trans ?_ (Cert.TapFilter.tap_succ (sigOf x0) (opOf x1) 1 ⟨k.val, hk⟩ e f p).symm
  refine Finset.sum_congr rfl fun n _ => ?_
  rw [readAt_whole _ _ hz3, ih7 e f n, op_load arg2 x1 X2 hX2 k hk e n p]

include hX2 ih8 in
/-- The delayed tap two carried across the graph is tap three at this step's time. -/
theorem prod3 (e : Fin 2) (f : Fin 64) (p : Fin 128) :
    (∑ n : Fin 128, (View.readAt (Elt Ideal) arg8.view (Rect.unit ![0, 0, 0] S2x64x128.size inb_S2x64x128_S2x64x128_0_0_0).toLoadRect f8) (ix3 e f n) * (View.readAt (Elt Ideal) arg2.view (Rect.unit (s := S1x64x2x128x128) (k0_off2 k) S1x1x2x128x128.size (k0_off2_inb k)).toLoadRect X2) (ix5 0 0 e n p)) = tap (sigOf x0) (opOf x1) 3 ⟨k.val, hk⟩ e f p := by
  refine Eq.trans ?_ (Cert.TapFilter.tap_succ (sigOf x0) (opOf x1) 2 ⟨k.val, hk⟩ e f p).symm
  refine Finset.sum_congr rfl fun n _ => ?_
  rw [readAt_whole _ _ hz3, ih8 e f n, op_load arg2 x1 X2 hX2 k hk e n p]

include hX1 hk in
/-- What the step leaves in the first scratch buffer: the signal of this step's time. -/
theorem new6 (f : Fin 64) (n : Fin 128) :
    k0_pay7 (F := Ideal) (k0_pay8 (View.readAt (Elt Ideal) arg1.view (Rect.unit (s := S1x64x64x128) (k0_off1 k) S1x1x64x128.size (k0_off1_inb k)).toLoadRect X1)) (ix2 f n) = delayed (fun s => sigOf x0 s f n) (k.val + 1) := by
  rw [Payload.pay7_eq, Payload.pay8_apply, sig_load arg1 x0 X1 hX1 k hk f n]
  exact (Cert.TapFilter.delayed_succ (fun s => sigOf x0 s f n) ⟨k.val, hk⟩).symm

include hX2 hk ih6 in
/-- What the step leaves in the second scratch buffer: tap one of this step's time. -/
theorem new7 (e : Fin 2) (f : Fin 64) (n : Fin 128) :
    k0_pay5 (F := Ideal) (k0_pay10 (View.readAt (Elt Ideal) arg2.view (Rect.unit (s := S1x64x2x128x128) (k0_off2 k) S1x1x2x128x128.size (k0_off2_inb k)).toLoadRect X2) (View.readAt (Elt Ideal) arg6.view (Rect.unit ![0, 0] S64x128.size inb_S64x128_S64x128_0_0).toLoadRect f6) (View.readAt (Elt Ideal) arg7.view (Rect.unit ![0, 0, 0] S2x64x128.size inb_S2x64x128_S2x64x128_0_0_0).toLoadRect f7) (View.readAt (Elt Ideal) arg8.view (Rect.unit ![0, 0, 0] S2x64x128.size inb_S2x64x128_S2x64x128_0_0_0).toLoadRect f8)) (ix3 e f n)
      = delayed (fun s => tap (sigOf x0) (opOf x1) 1 s e f n) (k.val + 1) := by
  rw [Payload.pay5_eq, Payload.pay10_apply, prod1 arg2 arg6 x0 x1 X2 hX2 k hk f6 ih6 e f n]
  exact (Cert.TapFilter.delayed_succ (fun s => tap (sigOf x0) (opOf x1) 1 s e f n) ⟨k.val, hk⟩).symm

include hX2 hk ih7 in
/-- What the step leaves in the third scratch buffer: tap two of this step's time. -/
theorem new8 (e : Fin 2) (f : Fin 64) (n : Fin 128) :
    k0_pay6 (F := Ideal) (k0_pay11 (View.readAt (Elt Ideal) arg2.view (Rect.unit (s := S1x64x2x128x128) (k0_off2 k) S1x1x2x128x128.size (k0_off2_inb k)).toLoadRect X2) (View.readAt (Elt Ideal) arg6.view (Rect.unit ![0, 0] S64x128.size inb_S64x128_S64x128_0_0).toLoadRect f6) (View.readAt (Elt Ideal) arg7.view (Rect.unit ![0, 0, 0] S2x64x128.size inb_S2x64x128_S2x64x128_0_0_0).toLoadRect f7) (View.readAt (Elt Ideal) arg8.view (Rect.unit ![0, 0, 0] S2x64x128.size inb_S2x64x128_S2x64x128_0_0_0).toLoadRect f8)) (ix3 e f n)
      = delayed (fun s => tap (sigOf x0) (opOf x1) 2 s e f n) (k.val + 1) := by
  rw [Payload.pay6_eq, Payload.pay11_apply, prod2 arg2 arg7 x0 x1 X2 hX2 k hk f7 ih7 e f n]
  exact (Cert.TapFilter.delayed_succ (fun s => tap (sigOf x0) (opOf x1) 2 s e f n) ⟨k.val, hk⟩).symm

include hX1 hX2 ih6 ih7 ih8 in
/-- The output row the step stores: the batch filtered at this step's time. -/
theorem newRow (o : Fin 64) (n : Fin 128) :
    k0_pay4 (F := Ideal) v12 v15 (k0_pay12 (View.readAt (Elt Ideal) arg1.view (Rect.unit (s := S1x64x64x128) (k0_off1 k) S1x1x64x128.size (k0_off1_inb k)).toLoadRect X1) (View.readAt (Elt Ideal) arg2.view (Rect.unit (s := S1x64x2x128x128) (k0_off2 k) S1x1x2x128x128.size (k0_off2_inb k)).toLoadRect X2) (View.readAt (Elt Ideal) arg6.view (Rect.unit ![0, 0] S64x128.size inb_S64x128_S64x128_0_0).toLoadRect f6) (View.readAt (Elt Ideal) arg7.view (Rect.unit ![0, 0, 0] S2x64x128.size inb_S2x64x128_S2x64x128_0_0_0).toLoadRect f7) (View.readAt (Elt Ideal) arg8.view (Rect.unit ![0, 0, 0] S2x64x128.size inb_S2x64x128_S2x64x128_0_0_0).toLoadRect f8)) (ix4 0 0 o n)
      = Cert.TapFilter.filtered (sigOf x0) (opOf x1) v12 v15 ⟨k.val, hk⟩ o n := by
  rw [Payload.pay4_apply]
  unfold Cert.TapFilter.filtered
  refine congrArg (fun z => Cert.TapFilter.readout v12 v15 z o n) (funext fun jj => funext fun nn => ?_)
  rw [Payload.pay12_apply, Cert.TapFilter.stacked_eq_stackRows]
  exact stackRows_congr (fun f n => sig_load arg1 x0 X1 hX1 k hk f n)
    (prod1 arg2 arg6 x0 x1 X2 hX2 k hk f6 ih6) (prod2 arg2 arg7 x0 x1 X2 hX2 k hk f7 ih7) (prod3 arg2 arg8 x0 x1 X2 hX2 k hk f8 ih8) jj nn

end StepValues

/-! ## The induction over the steps -/

section Loop

variable (𝒱 : Variants) (c : Dev nD) (bd : Option 𝒱.V) (i : grid0.Coords) (arg1 : Memref sig .tc .vmem S1x64x64x128 .f32) (harg1 : arg1.IsWhole) (arg2 : Memref sig .tc .vmem S1x64x2x128x128 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S1x64x64x128 .f32) (harg5 : arg5.IsWhole) (arg6 : Memref sig .tc .vmem S64x128 .f32) (harg6 : arg6.IsWhole) (arg7 : Memref sig .tc .vmem S2x64x128 .f32) (harg7 : arg7.IsWhole) (arg8 : Memref sig .tc .vmem S2x64x128 .f32) (harg8 : arg8.IsWhole)
variable (x0 : Vec Ideal S1x64x64x128 .f32) (x1 : Vec Ideal S1x64x2x128x128 .f32) (v12 : Vec Ideal S64x512 .f32) (v15 : Vec Ideal S64x1 .f32)
variable (X1 : BufTy.Contents (Elt Ideal) arg1.view.ty) (X2 : BufTy.Contents (Elt Ideal) arg2.view.ty)
variable (G5 : BufTy.Contents (Elt Ideal) arg5.view.ty) (G6 : BufTy.Contents (Elt Ideal) arg6.view.ty)
variable (G7 : BufTy.Contents (Elt Ideal) arg7.view.ty) (G8 : BufTy.Contents (Elt Ideal) arg8.view.ty)

/-- Before step `j`: the three scratch buffers hold the signal, tap one and tap two ONE STEP EARLIER than time `j`,
    and the output's rows before `j` hold the filtered batch. -/
def Inv (j : ℕ) : Prop :=
  (∀ (f : Fin 64) (n : Fin 128), arg6.view.read (Elt Ideal) (arg6.view.writes (Elt Ideal) G6 (pb_k0_t1 (F := Ideal) 𝒱 c bd i arg1 harg1 arg2 harg2 arg3 harg3 arg4 harg4 arg5 harg5 arg6 harg6 arg7 harg7 arg8 harg8 v12 v15 X1 X2 G5 G6 G7 G8 j).2.1) (ix2 f n) = delayed (fun s => sigOf x0 s f n) j)
  ∧ (∀ (e : Fin 2) (f : Fin 64) (n : Fin 128), arg7.view.read (Elt Ideal) (arg7.view.writes (Elt Ideal) G7 (pb_k0_t1 (F := Ideal) 𝒱 c bd i arg1 harg1 arg2 harg2 arg3 harg3 arg4 harg4 arg5 harg5 arg6 harg6 arg7 harg7 arg8 harg8 v12 v15 X1 X2 G5 G6 G7 G8 j).2.2.1) (ix3 e f n)
        = delayed (fun s => tap (sigOf x0) (opOf x1) 1 s e f n) j)
  ∧ (∀ (e : Fin 2) (f : Fin 64) (n : Fin 128), arg8.view.read (Elt Ideal) (arg8.view.writes (Elt Ideal) G8 (pb_k0_t1 (F := Ideal) 𝒱 c bd i arg1 harg1 arg2 harg2 arg3 harg3 arg4 harg4 arg5 harg5 arg6 harg6 arg7 harg7 arg8 harg8 v12 v15 X1 X2 G5 G6 G7 G8 j).2.2.2) (ix3 e f n)
        = delayed (fun s => tap (sigOf x0) (opOf x1) 2 s e f n) j)
  ∧ (∀ (t : Fin 64) (o : Fin 64) (n : Fin 128), t.val < j → arg5.view.read (Elt Ideal) (arg5.view.writes (Elt Ideal) G5 (pb_k0_t1 (F := Ideal) 𝒱 c bd i arg1 harg1 arg2 harg2 arg3 harg3 arg4 harg4 arg5 harg5 arg6 harg6 arg7 harg7 arg8 harg8 v12 v15 X1 X2 G5 G6 G7 G8 j).1) (ix4 0 t o n)
        = Cert.TapFilter.filtered (sigOf x0) (opOf x1) v12 v15 t o n)

/-- The pieces before step `j + 1` are step `j`'s four stores in front of the pieces before step `j`. -/
theorem pieces_succ (j : ℕ) (hk : j < k0_t1_loop.trips) :
    (pb_k0_t1 (F := Ideal) 𝒱 c bd i arg1 harg1 arg2 harg2 arg3 harg3 arg4 harg4 arg5 harg5 arg6 harg6 arg7 harg7 arg8 harg8 v12 v15 X1 X2 G5 G6 G7 G8 (j + 1))
      = ((⟨Rect.unit (s := S1x64x64x128) (k0_off1 (⟨j, hk⟩ : Fin k0_t1_loop.trips)) S1x1x64x128.size (k0_off1_inb (⟨j, hk⟩ : Fin k0_t1_loop.trips)), k0_pay4 v12 v15 (k0_pay12 (View.readAt (Elt Ideal) arg1.view (Rect.unit (s := S1x64x64x128) (k0_off1 (⟨j, hk⟩ : Fin k0_t1_loop.trips)) S1x1x64x128.size (k0_off1_inb (⟨j, hk⟩ : Fin k0_t1_loop.trips))).toLoadRect X1) (View.readAt (Elt Ideal) arg2.view (Rect.unit (s := S1x64x2x128x128) (k0_off2 (⟨j, hk⟩ : Fin k0_t1_loop.trips)) S1x1x2x128x128.size (k0_off2_inb (⟨j, hk⟩ : Fin k0_t1_loop.trips))).toLoadRect X2) (View.readAt (Elt Ideal) arg6.view (Rect.unit ![0, 0] S64x128.size inb_S64x128_S64x128_0_0).toLoadRect (arg6.view.writes (Elt Ideal) G6 (pb_k0_t1 (F := Ideal) 𝒱 c bd i arg1 harg1 arg2 harg2 arg3 harg3 arg4 harg4 arg5 harg5 arg6 harg6 arg7 harg7 arg8 harg8 v12 v15 X1 X2 G5 G6 G7 G8 j).2.1)) (View.readAt (Elt Ideal) arg7.view (Rect.unit ![0, 0, 0] S2x64x128.size inb_S2x64x128_S2x64x128_0_0_0).toLoadRect (arg7.view.writes (Elt Ideal) G7 (pb_k0_t1 (F := Ideal) 𝒱 c bd i arg1 harg1 arg2 harg2 arg3 harg3 arg4 harg4 arg5 harg5 arg6 harg6 arg7 harg7 arg8 harg8 v12 v15 X1 X2 G5 G6 G7 G8 j).2.2.1)) (View.readAt (Elt Ideal) arg8.view (Rect.unit ![0, 0, 0] S2x64x128.size inb_S2x64x128_S2x64x128_0_0_0).toLoadRect (arg8.view.writes (Elt Ideal) G8 (pb_k0_t1 (F := Ideal) 𝒱 c bd i arg1 harg1 arg2 harg2 arg3 harg3 arg4 harg4 arg5 harg5 arg6 harg6 arg7 harg7 arg8 harg8 v12 v15 X1 X2 G5 G6 G7 G8 j).2.2.2)))⟩ : View.Piece (Elt Ideal) S1x64x64x128 .f32) :: (pb_k0_t1 (F := Ideal) 𝒱 c bd i arg1 harg1 arg2 harg2 arg3 harg3 arg4 harg4 arg5 harg5 arg6 harg6 arg7 harg7 arg8 harg8 v12 v15 X1 X2 G5 G6 G7 G8 j).1,
         (⟨Rect.unit ![0, 0] S64x128.size inb_S64x128_S64x128_0_0, k0_pay7 (k0_pay8 (View.readAt (Elt Ideal) arg1.view (Rect.unit (s := S1x64x64x128) (k0_off1 (⟨j, hk⟩ : Fin k0_t1_loop.trips)) S1x1x64x128.size (k0_off1_inb (⟨j, hk⟩ : Fin k0_t1_loop.trips))).toLoadRect X1))⟩ : View.Piece (Elt Ideal) S64x128 .f32) :: (pb_k0_t1 (F := Ideal) 𝒱 c bd i arg1 harg1 arg2 harg2 arg3 harg3 arg4 harg4 arg5 harg5 arg6 harg6 arg7 harg7 arg8 harg8 v12 v15 X1 X2 G5 G6 G7 G8 j).2.1,
         (⟨Rect.unit ![0, 0, 0] S2x64x128.size inb_S2x64x128_S2x64x128_0_0_0, k0_pay5 (k0_pay10 (View.readAt (Elt Ideal) arg2.view (Rect.unit (s := S1x64x2x128x128) (k0_off2 (⟨j, hk⟩ : Fin k0_t1_loop.trips)) S1x1x2x128x128.size (k0_off2_inb (⟨j, hk⟩ : Fin k0_t1_loop.trips))).toLoadRect X2) (View.readAt (Elt Ideal) arg6.view (Rect.unit ![0, 0] S64x128.size inb_S64x128_S64x128_0_0).toLoadRect (arg6.view.writes (Elt Ideal) G6 (pb_k0_t1 (F := Ideal) 𝒱 c bd i arg1 harg1 arg2 harg2 arg3 harg3 arg4 harg4 arg5 harg5 arg6 harg6 arg7 harg7 arg8 harg8 v12 v15 X1 X2 G5 G6 G7 G8 j).2.1)) (View.readAt (Elt Ideal) arg7.view (Rect.unit ![0, 0, 0] S2x64x128.size inb_S2x64x128_S2x64x128_0_0_0).toLoadRect (arg7.view.writes (Elt Ideal) G7 (pb_k0_t1 (F := Ideal) 𝒱 c bd i arg1 harg1 arg2 harg2 arg3 harg3 arg4 harg4 arg5 harg5 arg6 harg6 arg7 harg7 arg8 harg8 v12 v15 X1 X2 G5 G6 G7 G8 j).2.2.1)) (View.readAt (Elt Ideal) arg8.view (Rect.unit ![0, 0, 0] S2x64x128.size inb_S2x64x128_S2x64x128_0_0_0).toLoadRect (arg8.view.writes (Elt Ideal) G8 (pb_k0_t1 (F := Ideal) 𝒱 c bd i arg1 harg1 arg2 harg2 arg3 harg3 arg4 harg4 arg5 harg5 arg6 harg6 arg7 harg7 arg8 harg8 v12 v15 X1 X2 G5 G6 G7 G8 j).2.2.2)))⟩ : View.Piece (Elt Ideal) S2x64x128 .f32) :: (pb_k0_t1 (F := Ideal) 𝒱 c bd i arg1 harg1 arg2 harg2 arg3 harg3 arg4 harg4 arg5 harg5 arg6 harg6 arg7 harg7 arg8 harg8 v12 v15 X1 X2 G5 G6 G7 G8 j).2.2.1,
         (⟨Rect.unit ![0, 0, 0] S2x64x128.size inb_S2x64x128_S2x64x128_0_0_0, k0_pay6 (k0_pay11 (View.readAt (Elt Ideal) arg2.view (Rect.unit (s := S1x64x2x128x128) (k0_off2 (⟨j, hk⟩ : Fin k0_t1_loop.trips)) S1x1x2x128x128.size (k0_off2_inb (⟨j, hk⟩ : Fin k0_t1_loop.trips))).toLoadRect X2) (View.readAt (Elt Ideal) arg6.view (Rect.unit ![0, 0] S64x128.size inb_S64x128_S64x128_0_0).toLoadRect (arg6.view.writes (Elt Ideal) G6 (pb_k0_t1 (F := Ideal) 𝒱 c bd i arg1 harg1 arg2 harg2 arg3 harg3 arg4 harg4 arg5 harg5 arg6 harg6 arg7 harg7 arg8 harg8 v12 v15 X1 X2 G5 G6 G7 G8 j).2.1)) (View.readAt (Elt Ideal) arg7.view (Rect.unit ![0, 0, 0] S2x64x128.size inb_S2x64x128_S2x64x128_0_0_0).toLoadRect (arg7.view.writes (Elt Ideal) G7 (pb_k0_t1 (F := Ideal) 𝒱 c bd i arg1 harg1 arg2 harg2 arg3 harg3 arg4 harg4 arg5 harg5 arg6 harg6 arg7 harg7 arg8 harg8 v12 v15 X1 X2 G5 G6 G7 G8 j).2.2.1)) (View.readAt (Elt Ideal) arg8.view (Rect.unit ![0, 0, 0] S2x64x128.size inb_S2x64x128_S2x64x128_0_0_0).toLoadRect (arg8.view.writes (Elt Ideal) G8 (pb_k0_t1 (F := Ideal) 𝒱 c bd i arg1 harg1 arg2 harg2 arg3 harg3 arg4 harg4 arg5 harg5 arg6 harg6 arg7 harg7 arg8 harg8 v12 v15 X1 X2 G5 G6 G7 G8 j).2.2.2)))⟩ : View.Piece (Elt Ideal) S2x64x128 .f32) :: (pb_k0_t1 (F := Ideal) 𝒱 c bd i arg1 harg1 arg2 harg2 arg3 harg3 arg4 harg4 arg5 harg5 arg6 harg6 arg7 harg7 arg8 harg8 v12 v15 X1 X2 G5 G6 G7 G8 j).2.2.2) := by
  have hs := pb_k0_t1_succ (F := Ideal) 𝒱 c bd i arg1 harg1 arg2 harg2 arg3 harg3 arg4 harg4 arg5 harg5 arg6 harg6 arg7 harg7 arg8 harg8 v12 v15 X1 X2 G5 G6 G7 G8 (⟨j, hk⟩ : Fin k0_t1_loop.trips)
  rw [trip_pieces] at hs
  exact hs

end Loop

section Induct

variable (𝒱 : Variants) (c : Dev nD) (bd : Option 𝒱.V) (i : grid0.Coords) (arg1 : Memref sig .tc .vmem S1x64x64x128 .f32) (harg1 : arg1.IsWhole) (arg2 : Memref sig .tc .vmem S1x64x2x128x128 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S1x64x64x128 .f32) (harg5 : arg5.IsWhole) (arg6 : Memref sig .tc .vmem S64x128 .f32) (harg6 : arg6.IsWhole) (arg7 : Memref sig .tc .vmem S2x64x128 .f32) (harg7 : arg7.IsWhole) (arg8 : Memref sig .tc .vmem S2x64x128 .f32) (harg8 : arg8.IsWhole)
variable (x0 : Vec Ideal S1x64x64x128 .f32) (x1 : Vec Ideal S1x64x2x128x128 .f32) (v12 : Vec Ideal S64x512 .f32) (v15 : Vec Ideal S64x1 .f32)
variable (X1 : BufTy.Contents (Elt Ideal) arg1.view.ty) (X2 : BufTy.Contents (Elt Ideal) arg2.view.ty)
variable (G5 : BufTy.Contents (Elt Ideal) arg5.view.ty) (G6 : BufTy.Contents (Elt Ideal) arg6.view.ty)
variable (G7 : BufTy.Contents (Elt Ideal) arg7.view.ty) (G8 : BufTy.Contents (Elt Ideal) arg8.view.ty)
variable (hX1 : arg1.view.read (Elt Ideal) X1 = x0) (hX2 : arg2.view.read (Elt Ideal) X2 = x1)
variable (h6 : ∀ (f : Fin 64) (n : Fin 128), arg6.view.read (Elt Ideal) G6 (ix2 f n) = zero)
variable (h7 : ∀ (e : Fin 2) (f : Fin 64) (n : Fin 128), arg7.view.read (Elt Ideal) G7 (ix3 e f n) = zero)
variable (h8 : ∀ (e : Fin 2) (f : Fin 64) (n : Fin 128), arg8.view.read (Elt Ideal) G8 (ix3 e f n) = zero)

include h6 h7 h8 in
/-- Before the first step the scratch buffers are zero and no row is written. -/
theorem inv_zero : Inv 𝒱 c bd i arg1 harg1 arg2 harg2 arg3 harg3 arg4 harg4 arg5 harg5 arg6 harg6 arg7 harg7 arg8 harg8 x0 x1 v12 v15 X1 X2 G5 G6 G7 G8 0 := by
  have h0 : (pb_k0_t1 (F := Ideal) 𝒱 c bd i arg1 harg1 arg2 harg2 arg3 harg3 arg4 harg4 arg5 harg5 arg6 harg6 arg7 harg7 arg8 harg8 v12 v15 X1 X2 G5 G6 G7 G8 0) = ([], [], [], []) := rfl
  unfold Inv
  rw [h0]
  exact ⟨fun f n => h6 f n, fun e f n => h7 e f n, fun e f n => h8 e f n, fun t o n ht => absurd ht (Nat.not_lt_zero _)⟩

include hX1 hX2 in
/-- One step keeps the invariant: each scratch buffer's last store went through its whole shape, and the output's
    new piece is the row of this step, the rows before it untouched. -/
theorem inv_step (j : ℕ) (hj : j < 64) (ih : Inv 𝒱 c bd i arg1 harg1 arg2 harg2 arg3 harg3 arg4 harg4 arg5 harg5 arg6 harg6 arg7 harg7 arg8 harg8 x0 x1 v12 v15 X1 X2 G5 G6 G7 G8 j) : Inv 𝒱 c bd i arg1 harg1 arg2 harg2 arg3 harg3 arg4 harg4 arg5 harg5 arg6 harg6 arg7 harg7 arg8 harg8 x0 x1 v12 v15 X1 X2 G5 G6 G7 G8 (j + 1) := by
  obtain ⟨ih6, ih7, ih8, ih5⟩ := ih
  have hk : j < k0_t1_loop.trips := by rw [trips_eq]; exact hj
  have hP := pieces_succ 𝒱 c bd i arg1 harg1 arg2 harg2 arg3 harg3 arg4 harg4 arg5 harg5 arg6 harg6 arg7 harg7 arg8 harg8 v12 v15 X1 X2 G5 G6 G7 G8 j hk
  have hP5 := congrArg Prod.fst hP
  have hP6 := congrArg (fun q => q.2.1) hP
  have hP7 := congrArg (fun q => q.2.2.1) hP
  have hP8 := congrArg (fun q => q.2.2.2) hP
  dsimp only at hP5 hP6 hP7 hP8
  refine ⟨fun f n => ?_, fun e f n => ?_, fun e f n => ?_, fun t o n ht => ?_⟩
  · rw [hP6]
    exact (congrFun (read_writes_whole arg6.view G6 hz2 _ _ _) (ix2 f n)).trans
      (new6 arg1 x0 X1 hX1 (⟨j, hk⟩ : Fin k0_t1_loop.trips) hj f n)
  · rw [hP7]
    exact (congrFun (read_writes_whole arg7.view G7 hz3 _ _ _) (ix3 e f n)).trans
      (new7 arg2 arg6 arg7 arg8 x0 x1 X2 hX2 (⟨j, hk⟩ : Fin k0_t1_loop.trips) hj _ _ _ ih6 e f n)
  · rw [hP8]
    exact (congrFun (read_writes_whole arg8.view G8 hz3 _ _ _) (ix3 e f n)).trans
      (new8 arg2 arg6 arg7 arg8 x0 x1 X2 hX2 (⟨j, hk⟩ : Fin k0_t1_loop.trips) hj _ _ _ ih7 e f n)
  · rw [hP5]
    by_cases hc : t.val = j
    · obtain rfl : t = ⟨j, hj⟩ := Fin.ext hc
      exact (View.read_writes_cons_unit_of_mem arg5.view G5 (k0_off1_inb (⟨j, hk⟩ : Fin k0_t1_loop.trips)) _ _ (ix4 0 ⟨j, hj⟩ o n) (ix4 0 0 o n)
        (k0_off1_eq (⟨j, hk⟩ : Fin k0_t1_loop.trips)) (fun a => by
          match a with
          | ⟨0, _⟩ => rfl
          | ⟨1, _⟩ => show j = j + 0; omega
          | ⟨2, _⟩ => show o.val = 0 + o.val; omega
          | ⟨3, _⟩ => show n.val = 0 + n.val; omega)).trans
        (newRow arg1 arg2 arg6 arg7 arg8 x0 x1 v12 v15 X1 X2 hX1 hX2 (⟨j, hk⟩ : Fin k0_t1_loop.trips) hj _ _ _ ih6 ih7 ih8 o n)
    · have hlt : t.val < j := by omega
      exact (View.read_writes_cons_unit_of_not_mem arg5.view G5 (k0_off1_inb (⟨j, hk⟩ : Fin k0_t1_loop.trips)) _ _ (ix4 0 t o n)
        (k0_off1_eq (⟨j, hk⟩ : Fin k0_t1_loop.trips)) (1 : Fin 4) (Or.inl hlt)).trans (ih5 t o n hlt)

include hX1 hX2 h6 h7 h8 in
/-- The invariant holds before every step, and after the last. -/
theorem inv_all (j : ℕ) (hj : j ≤ 64) : Inv 𝒱 c bd i arg1 harg1 arg2 harg2 arg3 harg3 arg4 harg4 arg5 harg5 arg6 harg6 arg7 harg7 arg8 harg8 x0 x1 v12 v15 X1 X2 G5 G6 G7 G8 j := by
  induction j with
  | zero => exact inv_zero 𝒱 c bd i arg1 harg1 arg2 harg2 arg3 harg3 arg4 harg4 arg5 harg5 arg6 harg6 arg7 harg7 arg8 harg8 x0 x1 v12 v15 X1 X2 G5 G6 G7 G8 h6 h7 h8
  | succ j ih => exact inv_step 𝒱 c bd i arg1 harg1 arg2 harg2 arg3 harg3 arg4 harg4 arg5 harg5 arg6 harg6 arg7 harg7 arg8 harg8 x0 x1 v12 v15 X1 X2 G5 G6 G7 G8 hX1 hX2 j (by omega) (ih (by omega))

end Induct

/-! ## The whole body -/

/-- The body, run from any prior contents of the output block, leaves the batch filtered in it. -/
theorem body_value (c : Dev nD) (i : grid0.Coords) (arg1 : Memref sig .tc .vmem S1x64x64x128 .f32) (harg1 : arg1.IsWhole) (arg2 : Memref sig .tc .vmem S1x64x2x128x128 .f32) (harg2 : arg2.IsWhole) (arg3 : Memref sig .tc .vmem S64x512 .f32) (harg3 : arg3.IsWhole) (arg4 : Memref sig .tc .vmem S64x1 .f32) (harg4 : arg4.IsWhole) (arg5 : Memref sig .tc .vmem S1x64x64x128 .f32) (harg5 : arg5.IsWhole) (arg6 : Memref sig .tc .vmem S64x128 .f32) (harg6 : arg6.IsWhole) (arg7 : Memref sig .tc .vmem S2x64x128 .f32) (harg7 : arg7.IsWhole) (arg8 : Memref sig .tc .vmem S2x64x128 .f32) (harg8 : arg8.IsWhole)
    (x0 : Vec Ideal S1x64x64x128 .f32) (x1 : Vec Ideal S1x64x2x128x128 .f32) (x2 : Vec Ideal S64x512 .f32) (x3 : Vec Ideal S64x1 .f32)
    (f4 : BufTy.Contents (Elt Ideal) arg5.view.ty) :
    arg5.view.read (Elt Ideal) (arg5.view.writes (Elt Ideal) f4 (Cert.KernelIdeal.GenP.kernelRun0_A (F := Ideal) c i arg1 harg1 arg2 harg2 arg3 harg3 arg4 harg4 arg5 harg5 arg6 harg6 arg7 harg7 arg8 harg8 x0 x1 x2 x3 f4).1)
      = Gout x0 x1 x2 x3 := by
  unfold Cert.KernelIdeal.GenP.kernelRun0_A
  dsimp only
  sl_unfold_run_names
  have htr : Scf.trips (0#32) (Scalar.addi 0#32 64#32) 1#32 = 64 := by decide +kernel
  rw [htr, readAt_whole _ _ hz2, readAt_whole _ _ hz2, harg3.read_unread, harg4.read_unread]
  funext y
  obtain ⟨t, o, n, rfl⟩ : ∃ (t : Fin 64) (o : Fin 64) (n : Fin 128), y = ix4 (0 : Fin 1) t o n :=
    ⟨y 1, y 2, y 3, by rw [show (0 : Fin 1) = y 0 from (Fin.fin_one_eq_zero _).symm]; exact eq_ix4 y⟩
  exact (inv_all Variants.none c none i arg1 harg1 arg2 harg2 arg3 harg3 arg4 harg4 arg5 harg5 arg6 harg6 arg7 harg7 arg8 harg8 x0 x1 x2 x3 (harg1.unread x0) (harg2.unread x1) f4 _ _ _
    (harg1.read_unread x0) (harg2.read_unread x1)
    (fun f n => (congrFun (read_writes_whole arg6.view _ hz2 _ _ _) (ix2 f n)).trans (Payload.pay1_apply _))
    (fun e f n => (congrFun (read_writes_whole arg7.view _ hz3 _ _ _) (ix3 e f n)).trans (Payload.pay2_apply _))
    (fun e f n => (congrFun (read_writes_whole arg8.view _ hz3 _ _ _) (ix3 e f n)).trans (Payload.pay3_apply _))
    64 le_rfl).2.2.2 t o n t.isLt

end Cert.KernelIdeal.LoopValue

end
-- ==== Proof.KernelIdealValue.lean ====
/-
  THE WHOLE RESULT ARRAY of the kernel's program, at the extended reals.

  The program's grid has one point per batch. At point `t` the body is given batch `t` of the signal and of the shift
  operators, the whole read-out matrix (the host's reshape of the third argument) and the whole bias column, and leaves
  in its output block that batch filtered (`LoopValue.Gout`). So what point `t` writes back is block `t` of ONE function of
  the arguments, `Cert.TapFilter.G`: each batch filtered by itself. The blocks of the 16 points tile the result array, which
  therefore ends holding `G` of the arguments; the arguments themselves are left as they were.

  First the blockwise statements (what each point writes back; the result array and the arguments after the run), then
  the blocks of the inputs as parts of the arguments, the write-back as a block of `G`, the cover, and the run.
-/
import proofs.«130758_j26628797235681_2_alg».proof.Proof.KernelIdealFrame
import proofs.«130758_j26628797235681_2_alg».proof.Proof.Spec
import Idealize.ShloMosaic.Lib.Pipeline.Value
import Idealize.ShloMosaic.Lib.StableHlo.Run

set_option maxRecDepth 16384

noncomputable section

namespace Cert.KernelIdeal.ValueP

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## Blockwise: what each point writes back; the arrays after the run -/

/-- WHAT POINT `t` WRITES BACK to the result array: what the body left in the output's staging buffer (`GenP.outsAt0`),
    read through the window's block. -/
theorem flushed4 (c : Dev nD) (t : Fin cfg0.N) :
    (GenP.dats m 0 c).flushed 4 t = (cfg0.win 4).cut (grid0.coords t) (GenP.outsAt0 m c t) := by
  show (cfg0.win 4).cut (grid0.coords t) ((GenP.dats m 0 c).after 4 t) = _
  rw [GenP.after0_4]

/-- After the frame run, the result array is `(GenP.dats m 0 c).arrAt 4 N`. -/
theorem post4 (r : PUnit × MemSt nD τ sig (Elt Ideal)) (h : Pipeline.FramePost cfgs (GenP.dats m) 0 (V m) r) (c : Dev nD) :
    r.2.mem ((c : Thread nD τ).loc main_v1) = (GenP.dats m 0 c).arrAt 4 cfg0.N :=
  (h c).1 4

/-- After the frame run, argument `main_arg0` is as launched: input window 0 stages it and never writes it back. -/
theorem kept_main_arg0 (r : PUnit × MemSt nD τ sig (Elt Ideal)) (h : Pipeline.FramePost cfgs (GenP.dats m) 0 (V m) r) (c : Dev nD) :
    r.2.mem ((c : Thread nD τ).loc main_arg0) = m ((c : Thread nD τ).loc main_arg0) :=
  ((h c).1 0).trans (((GenP.dats m 0 c).arrAt_in 0 rfl _).trans ((GenP.A_eq m c 0).trans (V_main_arg0 m c)))

/-- After the frame run, argument `main_arg1` is as launched: input window 1 stages it and never writes it back. -/
theorem kept_main_arg1 (r : PUnit × MemSt nD τ sig (Elt Ideal)) (h : Pipeline.FramePost cfgs (GenP.dats m) 0 (V m) r) (c : Dev nD) :
    r.2.mem ((c : Thread nD τ).loc main_arg1) = m ((c : Thread nD τ).loc main_arg1) :=
  ((h c).1 1).trans (((GenP.dats m 0 c).arrAt_in 1 rfl _).trans ((GenP.A_eq m c 1).trans (V_main_arg1 m c)))

/-- After the frame run, argument `main_arg2` is as launched: no window stages it, and the run leaves the region's other buffers as they were. -/
theorem kept_main_arg2 (r : PUnit × MemSt nD τ sig (Elt Ideal)) (h : Pipeline.FramePost cfgs (GenP.dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 3 stages it and never writes it back. -/
theorem kept_main_arg3 (r : PUnit × MemSt nD τ sig (Elt Ideal)) (h : Pipeline.FramePost cfgs (GenP.dats m) 0 (V m) r) (c : Dev nD) :
    r.2.mem ((c : Thread nD τ).loc main_arg3) = m ((c : Thread nD τ).loc main_arg3) :=
  ((h c).1 3).trans (((GenP.dats m 0 c).arrAt_in 3 rfl _).trans ((GenP.A_eq m c 3).trans (V_main_arg3 m c)))

/-- The frame run with the result array after the run NAMED — `(GenP.dats m 0 c).arrAt 4 N` —, the arguments unchanged. -/
theorem run_blocks : θ_run defs (onTc (τ := τ) (main (F := Ideal))) ⟨m, fun _ => 0, ρ⟩ fun r => ∀ c : Dev nD,
      r.2.mem ((c : Thread nD τ).loc main_v1) = (GenP.dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      kept_main_arg0 m r h c,
      kept_main_arg1 m r h c,
      kept_main_arg2 m r h c,
      kept_main_arg3 m r h c⟩)
    (GenP.run_main m ρ)

/-! ## The input blocks as parts of the arguments -/

/-- The printed index maps, decided over the 16 grid points: the signal's, the shift operators' and the result's windows
    move together along the batch axis, one block per point, and sit at zero on every other axis; the read-out matrix's
    and the bias column's windows are their whole arrays. -/
theorem idx_facts : ∀ t : Fin cfg0.N,
    win0_0.index t (0 : Fin 4) = win0_4.index t (0 : Fin 4) ∧ win0_0.index t (1 : Fin 4) = 0 ∧ win0_0.index t (2 : Fin 4) = 0 ∧ win0_0.index t (3 : Fin 4) = 0
    ∧ win0_1.index t (0 : Fin 5) = win0_4.index t (0 : Fin 4) ∧ win0_1.index t (1 : Fin 5) = 0 ∧ win0_1.index t (2 : Fin 5) = 0 ∧ win0_1.index t (3 : Fin 5) = 0 ∧ win0_1.index t (4 : Fin 5) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 4) = t.val ∧ win0_4.index t (1 : Fin 4) = 0 ∧ win0_4.index t (2 : Fin 4) = 0 ∧ win0_4.index t (3 : Fin 4) = 0 :=
  (by decide +kernel : ∀ t : Fin grid0.N, _)

/-- The read-out matrix as the region finds it: the host's reshape of the third argument. -/
theorem V_main_v0 (c : Dev nD) :
    (V m c main_v0 : S64x512.Idx → EReal) = shapeCast S64x512 (m ((c : Thread nD τ).loc main_arg2)) shapeCasts_S64x2x4x64_S64x512 := by
  dsimp only [Gen.V, Gen.hostOps0]; after_results; rfl

/-- The signal the body reads at point `t` is batch `b` of the first argument, `b` the point's block index. -/
theorem sig_blk (c : Dev nD) (t : Fin cfg0.N) (b : Fin 16) (hb : b.val = win0_4.index t (0 : Fin 4)) :
    LoopValue.sigOf (iblk m c 0 t) = fun s f n => (m ((c : Thread nD τ).loc main_arg0) : S16x64x64x128.Idx → EReal) (ix4 b s f n) := by
  obtain ⟨e00, e01, e02, e03, -⟩ := idx_facts t
  funext s f n
  unfold LoopValue.sigOf iblk
  rw [View.read_apply]
  show V m c main_arg0 _ = _
  rw [V_main_arg0]
  refine congrArg _ (funext fun a => Fin.ext ?_)
  match a with
  | ⟨0, _⟩ => show win0_0.index t (0 : Fin 4) * 1 + 1 * 0 = b.val; omega
  | ⟨1, _⟩ => show win0_0.index t (1 : Fin 4) * 64 + 1 * s.val = s.val; omega
  | ⟨2, _⟩ => show win0_0.index t (2 : Fin 4) * 64 + 1 * f.val = f.val; omega
  | ⟨3, _⟩ => show win0_0.index t (3 : Fin 4) * 128 + 1 * n.val = n.val; omega

/-- The shift operators the body reads at point `t` are batch `b` of the second argument. -/
theorem op_blk (c : Dev nD) (t : Fin cfg0.N) (b : Fin 16) (hb : b.val = win0_4.index t (0 : Fin 4)) :
    LoopValue.opOf (iblk m c 1 t) = fun s e n p => (m ((c : Thread nD τ).loc main_arg1) : S16x64x2x128x128.Idx → EReal) (ix5 b s e n p) := by
  obtain ⟨-, -, -, -, e10, e11, e12, e13, e14, -⟩ := idx_facts t
  funext s e n p
  unfold LoopValue.opOf iblk
  rw [View.read_apply]
  show V m c main_arg1 _ = _
  rw [V_main_arg1]
  refine congrArg _ (funext fun a => Fin.ext ?_)
  match a with
  | ⟨0, _⟩ => show win0_1.index t (0 : Fin 5) * 1 + 1 * 0 = b.val; omega
  | ⟨1, _⟩ => show win0_1.index t (1 : Fin 5) * 64 + 1 * s.val = s.val; omega
  | ⟨2, _⟩ => show win0_1.index t (2 : Fin 5) * 2 + 1 * e.val = e.val; omega
  | ⟨3, _⟩ => show win0_1.index t (3 : Fin 5) * 128 + 1 * n.val = n.val; omega
  | ⟨4, _⟩ => show win0_1.index t (4 : Fin 5) * 128 + 1 * p.val = p.val; omega

/-- The read-out matrix's window is the whole matrix at every point. -/
theorem mat_blk (c : Dev nD) (t : Fin cfg0.N) :
    (iblk m c 2 t : S64x512.Idx → EReal) = shapeCast S64x512 (m ((c : Thread nD τ).loc main_arg2)) shapeCasts_S64x2x4x64_S64x512 := by
  obtain ⟨-, -, -, -, -, -, -, -, -, e20, e21, -⟩ := idx_facts t
  rw [← V_main_v0 m c]
  funext x
  unfold iblk
  rw [View.read_apply]
  show V m c main_v0 _ = V m c main_v0 x
  refine congrArg _ (funext fun a => Fin.ext ?_)
  match a with
  | ⟨0, _⟩ => show win0_2.index t (0 : Fin 2) * 64 + 1 * (x 0).val = (x 0).val; omega
  | ⟨1, _⟩ => show win0_2.index t (1 : Fin 2) * 512 + 1 * (x 1).val = (x 1).val; omega

/-- The bias column's window is the whole column at every point. -/
theorem bias_blk (c : Dev nD) (t : Fin cfg0.N) :
    (iblk m c 3 t : S64x1.Idx → EReal) = m ((c : Thread nD τ).loc main_arg3) := by
  obtain ⟨-, -, -, -, -, -, -, -, -, -, -, e30, e31, -⟩ := idx_facts t
  funext x
  unfold iblk
  rw [View.read_apply]
  show V m c main_arg3 _ = _
  rw [V_main_arg3]
  refine congrArg _ (funext fun a => Fin.ext ?_)
  match a with
  | ⟨0, _⟩ => show win0_3.index t (0 : Fin 2) * 64 + 1 * (x 0).val = (x 0).val; omega
  | ⟨1, _⟩ => show win0_3.index t (1 : Fin 2) * 1 + 1 * (x 1).val = (x 1).val; omega

/-! ## What a point writes back is a block of one function of the arguments -/

/-- What the result array ends holding: each batch of the arguments filtered by itself. -/
abbrev Gfin (c : Dev nD) : S16x64x64x128.Idx → EReal :=
  Cert.TapFilter.G (m ((c : Thread nD τ).loc main_arg0)) (m ((c : Thread nD τ).loc main_arg1))
    (shapeCast S64x512 (m ((c : Thread nD τ).loc main_arg2)) shapeCasts_S64x2x4x64_S64x512) (m ((c : Thread nD τ).loc main_arg3))

/-- The body's output block at point `t` is batch `b` of `Gfin`, `b` the point's block index. -/
theorem Gout_blk (c : Dev nD) (t : Fin cfg0.N) (b : Fin 16) (hb : b.val = win0_4.index t (0 : Fin 4)) (y : S1x64x64x128.Idx) :
    LoopValue.Gout (iblk m c 0 t) (iblk m c 1 t) (iblk m c 2 t) (iblk m c 3 t) y = Gfin m c (ix4 b (y 1) (y 2) (y 3)) := by
  unfold LoopValue.Gout Gfin Cert.TapFilter.G
  rw [sig_blk m c t b hb, op_blk m c t b hb, mat_blk m c t, bias_blk m c t]

/-- WHAT POINT `t` WRITES BACK is block `t` of `Gfin`. -/
theorem flushed4_eq (c : Dev nD) (t : Fin cfg0.N) :
    (GenP.dats m 0 c).flushed 4 t = ((cfg0.win 4).blk t).view.read (Elt Ideal) (Gfin m c) := by
  rw [flushed4]
  unfold GenP.outsAt0
  obtain ⟨-, -, -, -, -, -, -, -, -, -, -, -, -, e40, e41, e42, e43⟩ := idx_facts t
  have hN : t.val < 16 := Nat.lt_of_lt_of_eq t.isLt (show cfg0.N = 16 from N_0)
  funext j
  have hj0 : (j 0).val < 1 := (j 0).isLt
  rw [View.read_apply]
  show LoopValue.Gout (iblk m c 0 t) (iblk m c 1 t) (iblk m c 2 t) (iblk m c 3 t) ((cfg0.win 4).xinj (grid0.coords t) j) = Gfin m c (((cfg0.win 4).blk t).view.emb j)
  rw [Gout_blk m c t ⟨t.val, hN⟩ e40.symm]
  refine congrArg (Gfin m c) (funext fun a => Fin.ext ?_)
  match a with
  | ⟨0, _⟩ => show t.val = win0_4.index t (0 : Fin 4) * 1 + 1 * (j 0).val; omega
  | ⟨1, _⟩ => show (j 1).val = win0_4.index t (1 : Fin 4) * 64 + 1 * (j 1).val; omega
  | ⟨2, _⟩ => show (j 2).val = win0_4.index t (2 : Fin 4) * 64 + 1 * (j 2).val; omega
  | ⟨3, _⟩ => show (j 3).val = win0_4.index t (3 : Fin 4) * 128 + 1 * (j 3).val; omega

/-! ## The cover and the whole array -/

/-- An index of the result array is in point `t`'s block iff each coordinate is in the block's range on its axis. -/
theorem mem_blk4 (t : Fin cfg0.N) (i : S16x64x64x128.Idx) :
    i ∈ ((cfg0.win 4).blk t).view.set ↔ ∀ a : Fin 4, win0_4.index t a * S1x64x64x128.size a ≤ (i a).val ∧ (i a).val < win0_4.index t a * S1x64x64x128.size a + S1x64x64x128.size a := by
  show i ∈ ((View.whole main_v1).slice (win0_4.rect t)).set ↔ _
  rw [View.set_slice_whole, Rect.mem_set_unit]
  exact Iff.rfl

/-- Every index of the result array is in the block of the point its batch coordinate names. -/
theorem cover4 (i : S16x64x64x128.Idx) : ∃ t : Fin cfg0.N, (cfg0.win 4).flush t = true ∧ i ∈ ((cfg0.win 4).blk t).view.set := by
  have h0 : (i 0).val < 16 := (i 0).isLt
  have h1 : (i 1).val < 64 := (i 1).isLt
  have h2 : (i 2).val < 64 := (i 2).isLt
  have h3 : (i 3).val < 128 := (i 3).isLt
  refine ⟨⟨(i 0).val, by rw [show cfg0.N = 16 from N_0]; exact h0⟩, flush0_4 _, ?_⟩
  obtain ⟨-, -, -, -, -, -, -, -, -, -, -, -, -, e40, e41, e42, e43⟩ := idx_facts ⟨(i 0).val, by rw [show cfg0.N = 16 from N_0]; exact h0⟩
  rw [mem_blk4]
  intro a
  match a with
  | ⟨0, _⟩ => show win0_4.index _ (0 : Fin 4) * 1 ≤ (i 0).val ∧ (i 0).val < win0_4.index _ (0 : Fin 4) * 1 + 1; rw [e40]; show (i 0).val * 1 ≤ (i 0).val ∧ (i 0).val < (i 0).val * 1 + 1; omega
  | ⟨1, _⟩ => show win0_4.index _ (1 : Fin 4) * 64 ≤ (i 1).val ∧ (i 1).val < win0_4.index _ (1 : Fin 4) * 64 + 64; rw [e41]; omega
  | ⟨2, _⟩ => show win0_4.index _ (2 : Fin 4) * 64 ≤ (i 2).val ∧ (i 2).val < win0_4.index _ (2 : Fin 4) * 64 + 64; rw [e42]; omega
  | ⟨3, _⟩ => show win0_4.index _ (3 : Fin 4) * 128 ≤ (i 3).val ∧ (i 3).val < win0_4.index _ (3 : Fin 4) * 128 + 128; rw [e43]; omega

/-- THE RESULT ARRAY after the run: each batch of the arguments filtered by itself. -/
theorem final (c : Dev nD) : (GenP.dats m 0 c).arrAt 4 cfg0.N
    = Cert.TapFilter.G (m ((c : Thread nD τ).loc main_arg0)) (m ((c : Thread nD τ).loc main_arg1))
        (shapeCast S64x512 (m ((c : Thread nD τ).loc main_arg2)) shapeCasts_S64x2x4x64_S64x512) (m ((c : Thread nD τ).loc main_arg3)) :=
  (GenP.dats m 0 c).arrAt_eq_of_cover 4 (Gfin m c) (fun t _ => flushed4_eq m c t) cover4

/-! ## The run, read -/

/-- The frame run re-posted: the result array at `G` of the arguments, the arguments unchanged. -/
theorem run : θ_run defs (onTc (τ := τ) (main (F := Ideal))) ⟨m, fun _ => 0, ρ⟩ fun r => ∀ c : Dev nD,
      r.2.mem ((c : Thread nD τ).loc main_v1)
        = Cert.TapFilter.G (m ((c : Thread nD τ).loc main_arg0)) (m ((c : Thread nD τ).loc main_arg1))
            (shapeCast S64x512 (m ((c : Thread nD τ).loc main_arg2)) shapeCasts_S64x2x4x64_S64x512) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post4 m r h c).trans (final m c),
      kept_main_arg0 m r h c,
      kept_main_arg1 m r h c,
      kept_main_arg2 m r h c,
      kept_main_arg3 m r h c⟩)
    (GenP.run_main m ρ)

end Cert.KernelIdeal.ValueP

end
-- ==== Proof.RefValue.lean ====
/-
  The reference program's result, read at an index, is the specification `Cert.TapFilter.G`.

  The reference builds the four taps one after another. Tap 0 is the signal, repeated for both edge features. Each
  further tap takes the previous one, shifts it one time step (a zero row in front of its first 63 time steps) and
  multiplies it, per batch, time and edge feature, by the shift operator. The four taps are joined along a new axis,
  the node axis is moved in front of (edge feature, tap, feature), those three axes are merged into 512 rows, and
  the rows are read out by the reshaped 64 x 512 matrix plus the bias. Every step is read at an index here and the
  results are chained.
-/
import proofs.«130758_j26628797235681_2_alg».proof.Proof.Gen.ReferenceIdeal.Read
import proofs.«130758_j26628797235681_2_alg».proof.Proof.Spec
import Idealize.ShloMosaic.Lib.Pipeline.Value
import Idealize.ShloMosaic.Lib.ValueIdx
import Idealize.ShloMosaic.Lib.ValueIdxRank6
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- The signal repeated for both edge features: tap 0. -/
theorem v1_apply (x0 : (⟨S16x64x64x128, .f32⟩ : BufTy).Contents (Elt Ideal))
    (b : Fin 16) (t : Fin 64) (e : Fin 2) (f : Fin 64) (n : Fin 128) :
    val_main_v1 (F := Ideal) x0 (ix5 b t e f n) = x0 (ix4 b t f n) := by
  rw [val_main_v1_apply, val_main_v0_apply]
  exact congrArg x0 (funext fun a => Fin.ext (by
    match a with
    | ⟨0, _⟩ => rfl
    | ⟨1, _⟩ => rfl
    | ⟨2, _⟩ => rfl
    | ⟨3, _⟩ => rfl))

/-- The time shift: a zero row in front of the first 63 time steps of `y` is `y` one step earlier. -/
theorem shift_apply (y : (⟨S16x64x2x64x128, .f32⟩ : BufTy).Contents (Elt Ideal))
    (b : Fin 16) (t : Fin 64) (e : Fin 2) (f : Fin 64) (n : Fin 128) :
    concatenate S16x64x2x64x128 1 [⟨S16x1x2x64x128, val_main_v2 (F := Ideal)⟩, ⟨S16x63x2x64x128, extractStridedSlice S16x63x2x64x128 ![0, 0, 0, 0, 0] y slices_S16x64x2x64x128_S16x63x2x64x128_0_0_0_0_0⟩] concatenates_S16x1x2x64x128_S16x63x2x64x128_S16x64x2x64x128_d1 (ix5 b t e f n)
      = Cert.TapFilter.delayed (fun s => y (ix5 b s e f n)) t.val := by
  obtain ⟨tv, ht⟩ := t
  cases tv with
  | zero =>
    refine (concatenate_pair_apply_left (1 : Fin S16x64x2x64x128.rank) _ _ concatenates_S16x1x2x64x128_S16x63x2x64x128_S16x64x2x64x128_d1 _ rfl (ix5 b 0 e f n) ?_).trans ?_
    · intro a
      match a with
      | ⟨0, _⟩ => rfl
      | ⟨1, _⟩ => rfl
      | ⟨2, _⟩ => rfl
      | ⟨3, _⟩ => rfl
      | ⟨4, _⟩ => rfl
    · rw [val_main_v2_apply, val_main_cst_apply]
      rfl
  | succ j =>
    have hj : j < 63 := by omega
    have hj' : j < 64 := by omega
    refine (concatenate_pair_apply_right (1 : Fin S16x64x2x64x128.rank) _ _ concatenates_S16x1x2x64x128_S16x63x2x64x128_S16x64x2x64x128_d1 _ rfl rfl (ix5 b ⟨j, hj⟩ e f n) ?_ ?_).trans ?_
    · intro a ha
      match a, ha with
      | ⟨0, _⟩, _ => rfl
      | ⟨1, _⟩, ha => exact absurd rfl ha
      | ⟨2, _⟩, _ => rfl
      | ⟨3, _⟩, _ => rfl
      | ⟨4, _⟩, _ => rfl
    · rfl
    · refine (extractStridedSlice_apply ![0, 0, 0, 0, 0] y slices_S16x64x2x64x128_S16x63x2x64x128_0_0_0_0_0 _ (ix5 b ⟨j, hj'⟩ e f n) ?_).trans ?_
      · intro a
        match a with
        | ⟨0, _⟩ => show b.val = 0 + b.val; omega
        | ⟨1, _⟩ => show j = 0 + j; omega
        | ⟨2, _⟩ => show e.val = 0 + e.val; omega
        | ⟨3, _⟩ => show f.val = 0 + f.val; omega
        | ⟨4, _⟩ => show n.val = 0 + n.val; omega
      · show _ = (if h : j < 64 then y (ix5 b ⟨j, h⟩ e f n) else Cert.TapFilter.zero)
        rw [dif_pos hj']

/-- Four arrays joined along a new axis 2 (each a unit piece): coordinate `k` on that axis reads array `k`. -/
theorem concat4_apply (y0 y1 y2 y3 : (⟨S16x64x1x2x64x128, .f32⟩ : BufTy).Contents (Elt Ideal))
    (b : Fin 16) (t : Fin 64) (k : Fin 4) (e : Fin 2) (f : Fin 64) (n : Fin 128) :
    concatenate S16x64x4x2x64x128 2 [⟨S16x64x1x2x64x128, y0⟩, ⟨S16x64x1x2x64x128, y1⟩, ⟨S16x64x1x2x64x128, y2⟩, ⟨S16x64x1x2x64x128, y3⟩] concatenates_S16x64x1x2x64x128_S16x64x1x2x64x128_S16x64x1x2x64x128_S16x64x1x2x64x128_S16x64x4x2x64x128_d2 (ix6 b t k e f n)
      = (![y0, y1, y2, y3] k) (ix6 b t (0 : Fin 1) e f n) := by
  have hi : ∀ a : Fin S16x64x1x2x64x128.rank, a.cast (rfl : S16x64x1x2x64x128.rank = S16x64x4x2x64x128.rank) ≠ (2 : Fin S16x64x4x2x64x128.rank) →
      ((ix6 b t (0 : Fin 1) e f n : S16x64x1x2x64x128.Idx) a).val = ((ix6 b t k e f n : S16x64x4x2x64x128.Idx) (a.cast rfl)).val := by
    intro a ha
    match a, ha with
    | ⟨0, _⟩, _ => rfl
    | ⟨1, _⟩, _ => rfl
    | ⟨2, _⟩, ha => exact absurd rfl ha
    | ⟨3, _⟩, _ => rfl
    | ⟨4, _⟩, _ => rfl
    | ⟨5, _⟩, _ => rfl
  match k, hi with
  | ⟨0, _⟩, hi =>
    exact concatenate_apply_piece (2 : Fin S16x64x4x2x64x128.rank) [⟨S16x64x1x2x64x128, y0⟩, ⟨S16x64x1x2x64x128, y1⟩, ⟨S16x64x1x2x64x128, y2⟩, ⟨S16x64x1x2x64x128, y3⟩] concatenates_S16x64x1x2x64x128_S16x64x1x2x64x128_S16x64x1x2x64x128_S16x64x1x2x64x128_S16x64x4x2x64x128_d2 _ 0 (by show (0 : ℕ) < 4; omega) S16x64x1x2x64x128 y0 rfl rfl 0 rfl (ix6 b t (0 : Fin 1) e f n) hi rfl
  | ⟨1, _⟩, hi =>
    exact concatenate_apply_piece (2 : Fin S16x64x4x2x64x128.rank) [⟨S16x64x1x2x64x128, y0⟩, ⟨S16x64x1x2x64x128, y1⟩, ⟨S16x64x1x2x64x128, y2⟩, ⟨S16x64x1x2x64x128, y3⟩] concatenates_S16x64x1x2x64x128_S16x64x1x2x64x128_S16x64x1x2x64x128_S16x64x1x2x64x128_S16x64x4x2x64x128_d2 _ 1 (by show (1 : ℕ) < 4; omega) S16x64x1x2x64x128 y1 rfl rfl 1 rfl (ix6 b t (0 : Fin 1) e f n) hi rfl
  | ⟨2, _⟩, hi =>
    exact concatenate_apply_piece (2 : Fin S16x64x4x2x64x128.rank) [⟨S16x64x1x2x64x128, y0⟩, ⟨S16x64x1x2x64x128, y1⟩, ⟨S16x64x1x2x64x128, y2⟩, ⟨S16x64x1x2x64x128, y3⟩] concatenates_S16x64x1x2x64x128_S16x64x1x2x64x128_S16x64x1x2x64x128_S16x64x1x2x64x128_S16x64x4x2x64x128_d2 _ 2 (by show (2 : ℕ) < 4; omega) S16x64x1x2x64x128 y2 rfl rfl 2 rfl (ix6 b t (0 : Fin 1) e f n) hi rfl
  | ⟨3, _⟩, hi =>
    exact concatenate_apply_piece (2 : Fin S16x64x4x2x64x128.rank) [⟨S16x64x1x2x64x128, y0⟩, ⟨S16x64x1x2x64x128, y1⟩, ⟨S16x64x1x2x64x128, y2⟩, ⟨S16x64x1x2x64x128, y3⟩] concatenates_S16x64x1x2x64x128_S16x64x1x2x64x128_S16x64x1x2x64x128_S16x64x1x2x64x128_S16x64x4x2x64x128_d2 _ 3 (by show (3 : ℕ) < 4; omega) S16x64x1x2x64x128 y3 rfl rfl 3 rfl (ix6 b t (0 : Fin 1) e f n) hi rfl

/-- Batch `b` of the signal, by coordinates (time, feature, node). -/
abbrev sig (x0 : (⟨S16x64x64x128, .f32⟩ : BufTy).Contents (Elt Ideal)) (b : Fin 16) : Fin 64 → Fin 64 → Fin 128 → EReal :=
  fun t f n => x0 (ix4 b t f n)

/-- Batch `b` of the shift operator, by coordinates (time, edge feature, node, node). -/
abbrev op (x1 : (⟨S16x64x2x128x128, .f32⟩ : BufTy).Contents (Elt Ideal)) (b : Fin 16) : Fin 64 → Fin 2 → Fin 128 → Fin 128 → EReal :=
  fun t e n p => x1 (ix5 b t e n p)

section
variable (x0 : (⟨S16x64x64x128, .f32⟩ : BufTy).Contents (Elt Ideal)) (x1 : (⟨S16x64x2x128x128, .f32⟩ : BufTy).Contents (Elt Ideal))

/-- One step of the recursion: when `y` holds tap `k` of every batch, its time shift multiplied by the shift
    operator along the node axis is tap `k + 1`. -/
theorem tap_step (y : (⟨S16x64x2x64x128, .f32⟩ : BufTy).Contents (Elt Ideal)) (k : ℕ)
    (hy : ∀ (b : Fin 16) (t : Fin 64) (e : Fin 2) (f : Fin 64) (n : Fin 128),
      y (ix5 b t e f n) = Cert.TapFilter.tap (sig x0 b) (op x1 b) k t e f n)
    (b : Fin 16) (t : Fin 64) (e : Fin 2) (f : Fin 64) (p : Fin 128) :
    (∑ m : Fin 128, concatenate S16x64x2x64x128 1 [⟨S16x1x2x64x128, val_main_v2 (F := Ideal)⟩, ⟨S16x63x2x64x128, extractStridedSlice S16x63x2x64x128 ![0, 0, 0, 0, 0] y slices_S16x64x2x64x128_S16x63x2x64x128_0_0_0_0_0⟩] concatenates_S16x1x2x64x128_S16x63x2x64x128_S16x64x2x64x128_d1 (ix5 b t e f m) * x1 (ix5 b t e m p))
      = Cert.TapFilter.tap (sig x0 b) (op x1 b) (k + 1) t e f p := by
  rw [Cert.TapFilter.tap_succ]
  refine Finset.sum_congr rfl fun m _ => ?_
  rw [shift_apply]
  exact congrArg (fun u => Cert.TapFilter.delayed u t.val * x1 (ix5 b t e m p)) (funext fun s => hy b s e f m)

/-- Tap 0 as the reference holds it. -/
theorem v1_tap (b : Fin 16) (t : Fin 64) (e : Fin 2) (f : Fin 64) (n : Fin 128) :
    val_main_v1 (F := Ideal) x0 (ix5 b t e f n) = Cert.TapFilter.tap (sig x0 b) (op x1 b) 0 t e f n :=
  v1_apply x0 b t e f n

theorem lidx5 (b : Fin 16) (t : Fin 64) (e : Fin 2) (f : Fin 64) (p : Fin 128) (k : Fin 128) :
    lidx_main_v5 (ix5 b t e f p) k = ix5 b t e f k :=
  funext fun a => Fin.ext (by
    match a with
    | ⟨0, _⟩ => rfl
    | ⟨1, _⟩ => rfl
    | ⟨2, _⟩ => rfl
    | ⟨3, _⟩ => rfl
    | ⟨4, _⟩ => rfl)

theorem ridx5 (b : Fin 16) (t : Fin 64) (e : Fin 2) (f : Fin 64) (p : Fin 128) (k : Fin 128) :
    ridx_main_v5 (ix5 b t e f p) k = ix5 b t e k p :=
  funext fun a => Fin.ext (by
    match a with
    | ⟨0, _⟩ => rfl
    | ⟨1, _⟩ => rfl
    | ⟨2, _⟩ => rfl
    | ⟨3, _⟩ => rfl
    | ⟨4, _⟩ => rfl)

/-- Tap 1: the shifted signal times the shift operator. -/
theorem v5_tap (b : Fin 16) (t : Fin 64) (e : Fin 2) (f : Fin 64) (p : Fin 128) :
    val_main_v5 (F := Ideal) x0 x1 (ix5 b t e f p) = Cert.TapFilter.tap (sig x0 b) (op x1 b) 1 t e f p := by
  rw [val_main_v5_apply]
  refine Eq.trans (Finset.sum_congr rfl fun k _ => ?_) (tap_step x0 x1 (val_main_v1 (F := Ideal) x0) 0 (v1_tap x0 x1) b t e f p)
  rw [lidx5, ridx5]
  rfl

/-- Tap 2. -/
theorem v8_tap (b : Fin 16) (t : Fin 64) (e : Fin 2) (f : Fin 64) (p : Fin 128) :
    val_main_v8 (F := Ideal) x0 x1 (ix5 b t e f p) = Cert.TapFilter.tap (sig x0 b) (op x1 b) 2 t e f p := by
  rw [val_main_v8_apply]
  refine Eq.trans (Finset.sum_congr rfl fun k _ => ?_) (tap_step x0 x1 (val_main_v5 (F := Ideal) x0 x1) 1 (v5_tap x0 x1) b t e f p)
  rw [show lidx_main_v8 (ix5 b t e f p) k = ix5 b t e f k from lidx5 b t e f p k,
    show ridx_main_v8 (ix5 b t e f p) k = ix5 b t e k p from ridx5 b t e f p k]
  rfl

/-- Tap 3. -/
theorem v11_tap (b : Fin 16) (t : Fin 64) (e : Fin 2) (f : Fin 64) (p : Fin 128) :
    val_main_v11 (F := Ideal) x0 x1 (ix5 b t e f p) = Cert.TapFilter.tap (sig x0 b) (op x1 b) 3 t e f p := by
  rw [val_main_v11_apply]
  refine Eq.trans (Finset.sum_congr rfl fun k _ => ?_) (tap_step x0 x1 (val_main_v8 (F := Ideal) x0 x1) 2 (v8_tap x0 x1) b t e f p)
  rw [show lidx_main_v11 (ix5 b t e f p) k = ix5 b t e f k from lidx5 b t e f p k,
    show ridx_main_v11 (ix5 b t e f p) k = ix5 b t e k p from ridx5 b t e f p k]
  rfl

/-- The index a unit piece of the joined taps reads its tap at. -/
theorem idx12 (b : Fin 16) (t : Fin 64) (e : Fin 2) (f : Fin 64) (n : Fin 128) :
    idx_main_v12 (ix6 b t (0 : Fin 1) e f n) = ix5 b t e f n :=
  funext fun a => Fin.ext (by
    match a with
    | ⟨0, _⟩ => rfl
    | ⟨1, _⟩ => rfl
    | ⟨2, _⟩ => rfl
    | ⟨3, _⟩ => rfl
    | ⟨4, _⟩ => rfl)

/-- The four taps joined along a new axis: coordinate `k` on it is tap `k`. -/
theorem v16_apply (b : Fin 16) (t : Fin 64) (k : Fin 4) (e : Fin 2) (f : Fin 64) (n : Fin 128) :
    val_main_v16 (F := Ideal) x0 x1 (ix6 b t k e f n) = Cert.TapFilter.tap (sig x0 b) (op x1 b) k.val t e f n := by
  unfold val_main_v16
  refine (concat4_apply _ _ _ _ b t k e f n).trans ?_
  match k with
  | ⟨0, _⟩ =>
    show val_main_v12 (F := Ideal) x0 (ix6 b t (0 : Fin 1) e f n) = _
    rw [val_main_v12_apply, idx12]
    exact v1_tap x0 x1 b t e f n
  | ⟨1, _⟩ =>
    show val_main_v13 (F := Ideal) x0 x1 (ix6 b t (0 : Fin 1) e f n) = _
    rw [val_main_v13_apply, show idx_main_v13 (ix6 b t (0 : Fin 1) e f n) = ix5 b t e f n from idx12 b t e f n]
    exact v5_tap x0 x1 b t e f n
  | ⟨2, _⟩ =>
    show val_main_v14 (F := Ideal) x0 x1 (ix6 b t (0 : Fin 1) e f n) = _
    rw [val_main_v14_apply, show idx_main_v14 (ix6 b t (0 : Fin 1) e f n) = ix5 b t e f n from idx12 b t e f n]
    exact v8_tap x0 x1 b t e f n
  | ⟨3, _⟩ =>
    show val_main_v15 (F := Ideal) x0 x1 (ix6 b t (0 : Fin 1) e f n) = _
    rw [val_main_v15_apply, show idx_main_v15 (ix6 b t (0 : Fin 1) e f n) = ix5 b t e f n from idx12 b t e f n]
    exact v11_tap x0 x1 b t e f n

/-- The node axis moved in front of (edge feature, tap, feature). -/
theorem v17_apply (b : Fin 16) (t : Fin 64) (n : Fin 128) (e : Fin 2) (k : Fin 4) (f : Fin 64) :
    val_main_v17 (F := Ideal) x0 x1 (ix6 b t n e k f) = Cert.TapFilter.tap (sig x0 b) (op x1 b) k.val t e f n := by
  rw [val_main_v17_apply]
  refine Eq.trans (congrArg (val_main_v16 (F := Ideal) x0 x1) (funext fun a => Fin.ext ?_)) (v16_apply x0 x1 b t k e f n)
  match a with
  | ⟨0, _⟩ => rfl
  | ⟨1, _⟩ => rfl
  | ⟨2, _⟩ => rfl
  | ⟨3, _⟩ => rfl
  | ⟨4, _⟩ => rfl
  | ⟨5, _⟩ => rfl

/-- (edge feature, tap, feature) merged into one axis of 512 rows: row `j` is edge feature `j / 256`, tap
    `j / 64 % 4`, feature `j % 64`. -/
theorem v18_apply (b : Fin 16) (t : Fin 64) (n : Fin 128) (j : Fin 512) :
    val_main_v18 (F := Ideal) x0 x1 (ix4 b t n j) = Cert.TapFilter.stacked (sig x0 b) (op x1 b) t j n := by
  unfold val_main_v18
  have h1 : j.val / 256 < 2 := by have := j.isLt; omega
  have h2 : j.val / 64 % 4 < 4 := by omega
  have h3 : j.val % 64 < 64 := by omega
  refine (shapeCast_apply (val_main_v17 (F := Ideal) x0 x1) shapeCasts_S16x64x128x2x4x64_S16x64x128x512 (ix4 b t n j)
    (ix6 b t n ⟨j.val / 256, h1⟩ ⟨j.val / 64 % 4, h2⟩ ⟨j.val % 64, h3⟩) ?_).trans ?_
  · rewrite [Shape.rowMajor_val_six, Shape.rowMajor_val_four]
    show ((((b.val * 64 + t.val) * 128 + n.val) * 2 + j.val / 256) * 4 + j.val / 64 % 4) * 64 + j.val % 64
      = ((b.val * 64 + t.val) * 128 + n.val) * 512 + j.val
    omega
  · exact v17_apply x0 x1 b t n ⟨j.val / 256, h1⟩ ⟨j.val / 64 % 4, h2⟩ ⟨j.val % 64, h3⟩

/-- The readout: the reshaped matrix times the 512 stacked rows, plus the bias of the output row. -/
theorem v24_apply (x2 : (⟨S64x2x4x64, .f32⟩ : BufTy).Contents (Elt Ideal)) (x3 : (⟨S64x1, .f32⟩ : BufTy).Contents (Elt Ideal))
    (b : Fin 16) (t : Fin 64) (o : Fin 64) (n : Fin 128) :
    val_main_v24 (F := Ideal) x0 x1 x2 x3 (ix4 b t o n)
      = Cert.TapFilter.readout (val_main_v19 (F := Ideal) x2) x3 (Cert.TapFilter.stacked (sig x0 b) (op x1 b) t) o n := by
  rw [val_main_v24_apply, val_main_v21_apply, val_main_v20_apply, val_main_v23_apply, val_main_v22_apply]
  unfold Cert.TapFilter.readout
  show (∑ k : Fin 512, val_main_v19 (F := Ideal) x2 (lidx_main_v20 (idx_main_v21 (ix4 b t o n)) k)
      * val_main_v18 (F := Ideal) x0 x1 (ridx_main_v20 (idx_main_v21 (ix4 b t o n)) k))
    + x3 (idx_main_v22 (idx_main_v23 (ix4 b t o n))) = _
  have hl : ∀ k : Fin 512, lidx_main_v20 (idx_main_v21 (ix4 b t o n)) k = ix2 o k := fun k => funext fun a => Fin.ext (by
    match a with
    | ⟨0, _⟩ => rfl
    | ⟨1, _⟩ => rfl)
  have hr : ∀ k : Fin 512, ridx_main_v20 (idx_main_v21 (ix4 b t o n)) k = ix4 b t n k := fun k => funext fun a => Fin.ext (by
    match a with
    | ⟨0, _⟩ => rfl
    | ⟨1, _⟩ => rfl
    | ⟨2, _⟩ => rfl
    | ⟨3, _⟩ => rfl)
  have hb : idx_main_v22 (idx_main_v23 (ix4 b t o n)) = ix2 o (0 : Fin 1) := funext fun a => Fin.ext (by
    match a with
    | ⟨0, _⟩ => rfl
    | ⟨1, _⟩ => rfl)
  rw [hb]
  refine congrArg (· + x3 (ix2 o (0 : Fin 1))) (Finset.sum_congr rfl fun k _ => ?_)
  rw [hl, hr, v18_apply]

end

/-- The reference's result is the specification. -/
theorem result_eq (x0 : (⟨S16x64x64x128, .f32⟩ : BufTy).Contents (Elt Ideal)) (x1 : (⟨S16x64x2x128x128, .f32⟩ : BufTy).Contents (Elt Ideal))
    (x2 : (⟨S64x2x4x64, .f32⟩ : BufTy).Contents (Elt Ideal)) (x3 : (⟨S64x1, .f32⟩ : BufTy).Contents (Elt Ideal)) :
    val_main_v24 (F := Ideal) x0 x1 x2 x3 = Cert.TapFilter.G x0 x1 (val_main_v19 (F := Ideal) x2) x3 := by
  funext i
  obtain ⟨b, t, o, n, rfl⟩ : ∃ b t o n, i = ix4 b t o n := ⟨i 0, i 1, i 2, i 3, eq_ix4 i⟩
  exact v24_apply x0 x1 x2 x3 b t o n

end Cert.ReferenceIdeal.RefValue

end
-- ==== Proof.lean ====
/-
  A graph filter with four taps, computed two ways, is one function of its inputs over the extended reals.

  Inputs: a signal `x[b, t, f, n]` (batch, time, feature, node), shift operators `S[b, t, e, n, p]` (edge feature `e`),
  readout weights `H[o, e, k, f]` and a bias `bias[o]`. For each batch and edge feature, tap 0 is the signal and tap `k + 1`
  at time `t` is tap `k` at time `t - 1` (zero at `t = 0`) carried across the graph by `S[b, t, e]`; the result at
  `(b, t, o, n)` is `∑ (e, k, f), H[o, e, k, f] · tap k [b, t, e, f, n] + bias[o]` (Proof/Spec.lean: `Cert.TapFilter.G`).

  The reference builds the taps as whole arrays — a zero time step concatenated in front of the first 63, then one
  contraction with `S`, three times — stacks them, and contracts with the reshaped weights (Proof/RefValue.lean reads
  its result index by index). The kernel takes one batch per grid point and walks the 64 time steps in a loop, carrying
  the previous signal and the previous first and second taps in three scratch buffers; each step is one batched product
  for the three diffusions and one product for the readout (Proof/Payload.lean reads a step's arithmetic at an index,
  Proof/LoopValue.lean carries the induction over the steps, Proof/KernelIdealValue.lean assembles the batches' blocks into
  the result array). Both sides are the same sums in the same arrangement, so no law beyond reading them is needed and
  the precondition (finite inputs) is never opened: a zero before the first step enters the same products on both sides.
  The ideal pass rewrote nothing, so `preserves` is `True`.
-/
import proofs.«130758_j26628797235681_2_alg».proof.Defs
import proofs.«130758_j26628797235681_2_alg».proof.Proof.Gen.Kernel
import proofs.«130758_j26628797235681_2_alg».proof.Proof.Gen.KernelIdeal
import proofs.«130758_j26628797235681_2_alg».proof.Proof.Gen.ReferenceIdeal
import proofs.«130758_j26628797235681_2_alg».proof.Proof.Gen.Pre_finite_inputs
import proofs.«130758_j26628797235681_2_alg».proof.Proof.Gen.ReferenceIdeal.Run
import proofs.«130758_j26628797235681_2_alg».proof.Proof.Gen.ReferenceIdeal.Read
import proofs.«130758_j26628797235681_2_alg».proof.Proof.KernelFrame
import proofs.«130758_j26628797235681_2_alg».proof.Proof.KernelIdealFrame
import proofs.«130758_j26628797235681_2_alg».proof.Proof.KernelIdealValue
import proofs.«130758_j26628797235681_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.GenP.frame m ρ

/-- So does the kernel read over the extended reals. -/
theorem frame_kernelIdeal : Cert.frame_KernelIdeal := fun m ρ _ => Cert.KernelIdeal.GenP.frame m ρ

/-- The reference is a straight line of host operations: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- Over the extended reals the kernel's result array and the reference's are both the filter `G` of the same
    arguments: the kernel's by its blocks, the reference's index by index. -/
theorem algebraic : Cert.algebraic_KernelIdeal_ReferenceIdeal := by
  intro m ρ m' ρ' _ hagree
  refine ⟨_, Cert.KernelIdeal.ValueP.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefValue.result_eq,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
